-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_v14) = v2 c
          ∧ r.2.mem ((c.tc : Thread Cert.ReferenceIdeal.nD Cert.ReferenceIdeal.τ).loc Cert.ReferenceIdeal.main_v53) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x32 : Shape := ⟨2, ![8192, 32]⟩
abbrev S8192x2048 : Shape := ⟨2, ![8192, 2048]⟩
abbrev S8192x256 : Shape := ⟨2, ![8192, 256]⟩
abbrev S3104x1024 : Shape := ⟨2, ![3104, 1024]⟩
abbrev S1024 : Shape := ⟨1, ![1024]⟩
abbrev S1024x512 : Shape := ⟨2, ![1024, 512]⟩
abbrev S512 : Shape := ⟨1, ![512]⟩
abbrev S3072x288 : Shape := ⟨2, ![3072, 288]⟩
abbrev S3072x1024 : Shape := ⟨2, ![3072, 1024]⟩
abbrev S3072 : Shape := ⟨1, ![3072]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x32 : S_.BroadcastsInDim S8192x32 (![] : Fin 0 → Fin S8192x32.rank)
  reducesTo_S8192x32_S_d0_1 : S8192x32.ReducesTo [0, 1] S_
  bcast_S_S8192x2048 : S_.BroadcastsInDim S8192x2048 (![] : Fin 0 → Fin S8192x2048.rank)
  reducesTo_S8192x2048_S_d0_1 : S8192x2048.ReducesTo [0, 1] S_
  bcast_S_S8192x256 : S_.BroadcastsInDim S8192x256 (![] : Fin 0 → Fin S8192x256.rank)
  reducesTo_S8192x256_S_d0_1 : S8192x256.ReducesTo [0, 1] S_
  bcast_S_S3104x1024 : S_.BroadcastsInDim S3104x1024 (![] : Fin 0 → Fin S3104x1024.rank)
  reducesTo_S3104x1024_S_d0_1 : S3104x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S3072x288 : S_.BroadcastsInDim S3072x288 (![] : Fin 0 → Fin S3072x288.rank)
  reducesTo_S3072x288_S_d0_1 : S3072x288.ReducesTo [0, 1] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_

variable [Facts]

def fn_part3 {F : FTy → Type} [FloatOps F] (main_arg11 : FVec F S3072 .f32) (main_v48 : IVec S_ 1) (main_v49 : FVec F S3072 .f32) (main_v50 : FVec F S3072 .f32) : IVec S_ 1 :=
  let main_v51 : IVec S3072 1 := cmpf .olt main_v49 main_v50
  let main_c_19 : IVec S_ 1 := constantI S_ 1 1#1
  let main_v52 : IVec S_ 1 := (fun x v => Host.reduce IntOp.andi x v reducesTo_S3072_S_d0 h_S_) main_v51 main_c_19
  let main_v53 : IVec S_ 1 := andi main_v48 main_v52
  let main_v54 : FVec F S3072 .f32 := Host.absf main_arg11
  let main_cst_20 : FVec F S_ .f32 := constant S_ .f32 0x7F800000#32
  let main_v55 : FVec F S3072 .f32 := broadcastInDim S3072 ![] bcast_S_S3072 main_cst_20
  let main_v56 : IVec S3072 1 := cmpf .olt main_v54 main_v55
  let main_c_21 : IVec S_ 1 := constantI S_ 1 1#1
  let main_v57 : IVec S_ 1 := (fun x v => Host.reduce IntOp.andi x v reducesTo_S3072_S_d0 h_S_) main_v56 main_c_21
  let main_v58 : IVec S_ 1 := andi main_v53 main_v57
  main_v58

def fn_part2 {F : FTy → Type} [FloatOps F] (main_arg7 : FVec F S512 .f32) (main_arg8 : FVec F S3072x288 .f32) (main_arg9 : FVec F S3072x1024 .f32) (main_arg10 : FVec F S3072 .f32) (main_arg11 : FVec F S3072 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S3072x288 .f32 := Host.absf main_arg8
  let main_cst_14 : FVec F S_ .f32 := constant S_ .f32 0x7F800000#32
  let main_v40 : FVec F S3072x288 .f32 := broadcastInDim S3072x288 ![] bcast_S_S3072x288 main_cst_14
  let main_v41 : IVec S3072x288 1 := cmpf .olt main_v39 main_v40
  let main_c_15 : IVec S_ 1 := constantI S_ 1 1#1
  let main_v42 : IVec S_ 1 := (fun x v => Host.reduce IntOp.andi x v reducesTo_S3072x288_S_d0_1 h_S_) main_v41 main_c_15
  let main_v43 : IVec S_ 1 := andi main_v38 main_v42
  let main_v44 : FVec F S3072x1024 .f32 := Host.absf main_arg9
  let main_cst_16 : FVec F S_ .f32 := constant S_ .f32 0x7F800000#32
  let main_v45 : FVec F S3072x1024 .f32 := broadcastInDim S3072x1024 ![] bcast_S_S3072x1024 main_cst_16
  let main_v46 : IVec S3072x1024 1 := cmpf .olt main_v44 main_v45
  let main_c_17 : IVec S_ 1 := constantI S_ 1 1#1
  let main_v47 : IVec S_ 1 := (fun x v => Host.reduce IntOp.andi x v reducesTo_S3072x1024_S_d0_1 h_S_) main_v46 main_c_17
  let main_v48 : IVec S_ 1 := andi main_v43 main_v47
  let main_v49 : FVec F S3072 .f32 := Host.absf main_arg10
  let main_cst_18 : FVec F S_ .f32 := constant S_ .f32 0x7F800000#32
  let main_v50 : FVec F S3072 .f32 := broadcastInDim S3072 ![] bcast_S_S3072 main_cst_18
  fn_part3 (F := F) main_arg11 main_v48 main_v49 main_v50

def fn_part1 {F : FTy → Type} [FloatOps F] (main_arg4 : FVec F S3104x1024 .f32) (main_arg5 : FVec F S1024 .f32) (main_arg6 : FVec F S1024x512 .f32) (main_arg7 : FVec F S512 .f32) (main_arg8 : FVec F S3072x288 .f32) (main_arg9 : FVec F S3072x1024 .f32) (main_arg10 : FVec F S3072 .f32) (main_arg11 : FVec F S3072 .f32) (main_v13 : IVec S_ 1) (main_v16 : IVec S8192x256 1) : IVec S_ 1 :=
  let main_c_5 : IVec S_ 1 := constantI S_ 1 1#1
  let main_v17 : IVec S_ 1 := (fun x v => Host.reduce IntOp.andi x v reducesTo_S8192x256_S_d0_1 h_S_) main_v16 main_c_5
  let main_v18 : IVec S_ 1 := andi main_v13 main_v17
  let main_v19 : FVec F S3104x1024 .f32 := Host.absf main_arg4
  let main_cst_6 : FVec F S_ .f32 := constant S_ .f32 0x7F800000#32
  let main_v20 : FVec F S3104x1024 .f32 := broadcastInDim S3104x1024 ![] bcast_S_S3104x1024 main_cst_6
  let main_v21 : IVec S3104x1024 1 := cmpf .olt main_v19 main_v20
  let main_c_7 : IVec S_ 1 := constantI S_ 1 1#1
  let main_v22 : IVec S_ 1 := (fun x v => Host.reduce IntOp.andi x v reducesTo_S3104x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x512 .f32 := Host.absf main_arg6
  let main_cst_10 : FVec F S_ .f32 := constant S_ .f32 0x7F800000#32
  let main_v30 : FVec F S1024x512 .f32 := broadcastInDim S1024x512 ![] bcast_S_S1024x512 main_cst_10
  let main_v31 : IVec S1024x512 1 := cmpf .olt main_v29 main_v30
  let main_c_11 : IVec S_ 1 := constantI S_ 1 1#1
  let main_v32 : IVec S_ 1 := (fun x v => Host.reduce IntOp.andi x v reducesTo_S1024x512_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S8192x1024 .f32) (main_arg1 : FVec F S8192x32 .f32) (main_arg2 : FVec F S8192x2048 .f32) (main_arg3 : FVec F S8192x256 .f32) (main_arg4 : FVec F S3104x1024 .f32) (main_arg5 : FVec F S1024 .f32) (main_arg6 : FVec F S1024x512 .f32) (main_arg7 : FVec F S512 .f32) (main_arg8 : FVec F S3072x288 .f32) (main_arg9 : FVec F S3072x1024 .f32) (main_arg10 : FVec F S3072 .f32) (main_arg11 : FVec F S3072 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x32 .f32 := Host.absf main_arg1
  let main_cst_0 : FVec F S_ .f32 := constant S_ .f32 0x7F800000#32
  let main_v5 : FVec F S8192x32 .f32 := broadcastInDim S8192x32 ![] bcast_S_S8192x32 main_cst_0
  let main_v6 : IVec S8192x32 1 := cmpf .olt main_v4 main_v5
  let main_c_1 : IVec S_ 1 := constantI S_ 1 1#1
  let main_v7 : IVec S_ 1 := (fun x v => Host.reduce IntOp.andi x v reducesTo_S8192x32_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S8192x256 .f32 := Host.absf main_arg3
  let main_cst_4 : FVec F S_ .f32 := constant S_ .f32 0x7F800000#32
  let main_v15 : FVec F S8192x256 .f32 := broadcastInDim S8192x256 ![] bcast_S_S8192x256 main_cst_4
  let main_v16 : IVec S8192x256 1 := cmpf .olt main_v14 main_v15
  fn_part1 (F := F) main_arg4 main_arg5 main_arg6 main_arg7 main_arg8 main_arg9 main_arg10 main_arg11 main_v13 main_v16
-- ==== Kernel.lean ====
abbrev S8192x1024 : Shape := ⟨2, ![8192, 1024]⟩
abbrev S8192x32 : Shape := ⟨2, ![8192, 32]⟩
abbrev S8192x2048 : Shape := ⟨2, ![8192, 2048]⟩
abbrev S8192x256 : Shape := ⟨2, ![8192, 256]⟩
abbrev S3104x1024 : Shape := ⟨2, ![3104, 1024]⟩
abbrev S1024 : Shape := ⟨1, ![1024]⟩
abbrev S1024x512 : Shape := ⟨2, ![1024, 512]⟩
abbrev S512 : Shape := ⟨1, ![512]⟩
abbrev S3072x288 : Shape := ⟨2, ![3072, 288]⟩
abbrev S3072x1024 : Shape := ⟨2, ![3072, 1024]⟩
abbrev S3072 : Shape := ⟨1, ![3072]⟩
abbrev S1024x1024 : Shape := ⟨2, ![1024, 1024]⟩
abbrev S32x1024 : Shape := ⟨2, ![32, 1024]⟩
abbrev S2048x1024 : Shape := ⟨2, ![2048, 1024]⟩
abbrev S288x3072 : Shape := ⟨2, ![288, 3072]⟩
abbrev S256x3072 : Shape := ⟨2, ![256, 3072]⟩
abbrev S32x3072 : Shape := ⟨2, ![32, 3072]⟩
abbrev S1024x3072 : Shape := ⟨2, ![1024, 3072]⟩
abbrev S1x1024 : Shape := ⟨2, ![1, 1024]⟩
abbrev S1x512 : Shape := ⟨2, ![1, 512]⟩
abbrev S1x3072 : Shape := ⟨2, ![1, 3072]⟩
abbrev S256x1024 : Shape := ⟨2, ![256, 1024]⟩
abbrev S256x32 : Shape := ⟨2, ![256, 32]⟩
abbrev S256x2048 : Shape := ⟨2, ![256, 2048]⟩
abbrev S256x256 : Shape := ⟨2, ![256, 256]⟩
abbrev S256x512 : Shape := ⟨2, ![256, 512]⟩

abbrev nBuf : Space → Nat
  | .hbm => 34
  | .vmem => 27
  | .smem => 0
  | _ => 0

abbrev bufTy : (tb : Table) → Fin (tcTables nBuf tb) → BufTy
  | .hbm, ⟨0, _⟩ => ⟨S8192x1024, .f32⟩
  | .hbm, ⟨1, _⟩ => ⟨S8192x32, .f32⟩
  | .hbm, ⟨2, _⟩ => ⟨S8192x2048, .f32⟩
  | .hbm, ⟨3, _⟩ => ⟨S8192x256, .f32⟩
  | .hbm, ⟨4, _⟩ => ⟨S3104x1024, .f32⟩
  | .hbm, ⟨5, _⟩ => ⟨S1024, .f32⟩
  | .hbm, ⟨6, _⟩ => ⟨S1024x512, .f32⟩
  | .hbm, ⟨7, _⟩ => ⟨S512, .f32⟩
  | .hbm, ⟨8, _⟩ => ⟨S3072x288, .f32⟩
  | .hbm, ⟨9, _⟩ => ⟨S3072x1024, .f32⟩
  | .hbm, ⟨10, _⟩ => ⟨S3072, .f32⟩
  | .hbm, ⟨11, _⟩ => ⟨S3072, .f32⟩
  | .hbm, ⟨12, _⟩ => ⟨S1024x1024, .f32⟩
  | .hbm, ⟨13, _⟩ => ⟨S1024x1024, .bf16⟩
  | .hbm, ⟨14, _⟩ => ⟨S32x1024, .f32⟩
  | .hbm, ⟨15, _⟩ => ⟨S32x1024, .bf16⟩
  | .hbm, ⟨16, _⟩ => ⟨S2048x1024, .f32⟩
  | .hbm, ⟨17, _⟩ => ⟨S2048x1024, .bf16⟩
  | .hbm, ⟨18, _⟩ => ⟨S1024x512, .bf16⟩
  | .hbm, ⟨19, _⟩ => ⟨S288x3072, .f32⟩
  | .hbm, ⟨20, _⟩ => ⟨S256x3072, .f32⟩
  | .hbm, ⟨21, _⟩ => ⟨S256x3072, .bf16⟩
  | .hbm, ⟨22, _⟩ => ⟨S32x3072, .f32⟩
  | .hbm, ⟨23, _⟩ => ⟨S32x3072, .bf16⟩
  | .hbm, ⟨24, _⟩ => ⟨S1024x3072, .f32⟩
  | .hbm, ⟨25, _⟩ => ⟨S1024x3072, .bf16⟩
  | .hbm, ⟨26, _⟩ => ⟨S1x1024, .f32⟩
  | .hbm, ⟨27, _⟩ => ⟨S1x512, .f32⟩
  | .hbm, ⟨28, _⟩ => ⟨S1x3072, .f32⟩
  | .hbm, ⟨29, _⟩ => ⟨S1x3072, .f32⟩
  | .hbm, ⟨30, _⟩ => ⟨S8192x256, .f32⟩
  | .hbm, ⟨31, _⟩ => ⟨S8192x256, .f32⟩
  | .hbm, ⟨32, _⟩ => ⟨S8192x256, .f32⟩
  | .hbm, ⟨33, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x32, .f32⟩
  | .local _ .vmem, ⟨3, _⟩ => ⟨S256x32, .f32⟩
  | .local _ .vmem, ⟨4, _⟩ => ⟨S256x2048, .f32⟩
  | .local _ .vmem, ⟨5, _⟩ => ⟨S256x2048, .f32⟩
  | .local _ .vmem, ⟨6, _⟩ => ⟨S256x256, .f32⟩
  | .local _ .vmem, ⟨7, _⟩ => ⟨S256x256, .f32⟩
  | .local _ .vmem, ⟨8, _⟩ => ⟨S1024x1024, .bf16⟩
  | .local _ .vmem, ⟨9, _⟩ => ⟨S32x1024, .bf16⟩
  | .local _ .vmem, ⟨10, _⟩ => ⟨S2048x1024, .bf16⟩
  | .local _ .vmem, ⟨11, _⟩ => ⟨S1x1024, .f32⟩
  | .local _ .vmem, ⟨12, _⟩ => ⟨S1024x512, .bf16⟩
  | .local _ .vmem, ⟨13, _⟩ => ⟨S1x512, .f32⟩
  | .local _ .vmem, ⟨14, _⟩ => ⟨S256x3072, .bf16⟩
  | .local _ .vmem, ⟨15, _⟩ => ⟨S32x3072, .bf16⟩
  | .local _ .vmem, ⟨16, _⟩ => ⟨S1024x3072, .bf16⟩
  | .local _ .vmem, ⟨17, _⟩ => ⟨S1x3072, .f32⟩
  | .local _ .vmem, ⟨18, _⟩ => ⟨S1x3072, .f32⟩
  | .local _ .vmem, ⟨19, _⟩ => ⟨S256x256, .f32⟩
  | .local _ .vmem, ⟨20, _⟩ => ⟨S256x256, .f32⟩
  | .local _ .vmem, ⟨21, _⟩ => ⟨S256x256, .f32⟩
  | .local _ .vmem, ⟨22, _⟩ => ⟨S256x256, .f32⟩
  | .local _ .vmem, ⟨23, _⟩ => ⟨S256x256, .f32⟩
  | .local _ .vmem, ⟨24, _⟩ => ⟨S256x256, .f32⟩
  | .local _ .vmem, ⟨25, _⟩ => ⟨S256x1024, .f32⟩
  | .local _ .vmem, ⟨26, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_v15 : Ref sig .tc := ⟨.hbm, 27, rfl⟩
abbrev main_call0_v16 : Ref sig .tc := ⟨.hbm, 28, rfl⟩
abbrev main_call0_v17 : Ref sig .tc := ⟨.hbm, 29, rfl⟩
abbrev main_v0_0 : Ref sig .tc := ⟨.hbm, 30, rfl⟩
abbrev main_v0_1 : Ref sig .tc := ⟨.hbm, 31, rfl⟩
abbrev main_v0_2 : Ref sig .tc := ⟨.hbm, 32, rfl⟩
abbrev main_v0_3 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x3072 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x3072 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x3072 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x3072 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x3072 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

class Facts₀ : Prop where
  slices_S3104x1024_S1024x1024_0_0 : S3104x1024.Slices ![0, 0] S1024x1024
  bitsLt_bf16_f32 : FTy.bits .bf16 < FTy.bits .f32
  slices_S3104x1024_S32x1024_1024_0 : S3104x1024.Slices ![1024, 0] S32x1024
  slices_S3104x1024_S2048x1024_1056_0 : S3104x1024.Slices ![1056, 0] S2048x1024
  transposes_S3072x288_S288x3072_1_0 : S3072x288.Transposes [1, 0] S288x3072
  slices_S288x3072_S256x3072_0_0 : S288x3072.Slices ![0, 0] S256x3072
  slices_S288x3072_S32x3072_256_0 : S288x3072.Slices ![256, 0] S32x3072
  transposes_S3072x1024_S1024x3072_1_0 : S3072x1024.Transposes [1, 0] S1024x3072
  shapeCasts_S1024_S1x1024 : S1024.ShapeCasts S1x1024
  shapeCasts_S512_S1x512 : S512.ShapeCasts S1x512
  shapeCasts_S3072_S1x3072 : S3072.ShapeCasts S1x3072
  inb_S256x1024_S256x1024_0_0 : ∀ a, (![0, 0] : Fin 2 → Nat) a + S256x1024.size a ≤ S256x1024.size a
  h_S256x1024 : 0 < S256x1024.numel
  inb_S256x32_S256x32_0_0 : ∀ a, (![0, 0] : Fin 2 → Nat) a + S256x32.size a ≤ S256x32.size a
  h_S256x32 : 0 < S256x32.numel
  inb_S256x2048_S256x2048_0_0 : ∀ a, (![0, 0] : Fin 2 → Nat) a + S256x2048.size a ≤ S256x2048.size a
  h_S256x2048 : 0 < S256x2048.numel
  inb_S256x256_S256x256_0_0 : ∀ a, (![0, 0] : Fin 2 → Nat) a + S256x256.size a ≤ S256x256.size a
  h_S256x256 : 0 < S256x256.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  slices_S256x512_o0_0_S256x256 : S256x512.Slices ![0, 0] S256x256
  slices_S256x512_o0_256_S256x256 : S256x512.Slices ![0, 256] S256x256
  inb_S256x3072_S256x3072_0_0 : ∀ a, (![0, 0] : Fin 2 → Nat) a + S256x3072.size a ≤ S256x3072.size a
  h_S256x3072 : 0 < S256x3072.numel
  shapeCasts_S256x3072_S256x3072 : S256x3072.ShapeCasts S256x3072
  inb_S32x3072_S32x3072_0_0 : ∀ a, (![0, 0] : Fin 2 → Nat) a + S32x3072.size a ≤ S32x3072.size a
  h_S32x3072 : 0 < S32x3072.numel
  shapeCasts_S32x3072_S32x3072 : S32x3072.ShapeCasts S32x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S256x3072 : S1x3072.Broadcasts S256x3072
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  slices_S256x3072_o0_0_S256x1024 : S256x3072.Slices ![0, 0] S256x1024
  slices_S256x3072_o0_1024_S256x1024 : S256x3072.Slices ![0, 1024] S256x1024
  slices_S256x3072_o0_2048_S256x1024 : S256x3072.Slices ![0, 2048] S256x1024
  dot_S256x1024_S1024x1024_S256x1024_1_0_0_1_n_n_wf : DotDims.WF S256x1024 S1024x1024 S256x1024 [1] [0] [0] [1] [] []
  dot_S256x32_S32x1024_S256x1024_1_0_0_1_n_n_wf : DotDims.WF S256x32 S32x1024 S256x1024 [1] [0] [0] [1] [] []
  dot_S256x2048_S2048x1024_S256x1024_1_0_0_1_n_n_wf : DotDims.WF S256x2048 S2048x1024 S256x1024 [1] [0] [0] [1] [] []
  dot_S256x1024_S1024x512_S256x512_1_0_0_1_n_n_wf : DotDims.WF S256x1024 S1024x512 S256x512 [1] [0] [0] [1] [] []
  dot_S256x256_S256x3072_S256x3072_1_0_0_1_n_n_wf : DotDims.WF S256x256 S256x3072 S256x3072 [1] [0] [0] [1] [] []
  dot_S256x32_S32x3072_S256x3072_1_0_0_1_n_n_wf : DotDims.WF S256x32 S32x3072 S256x3072 [1] [0] [0] [1] [] []
  dot_S256x1024_S1024x3072_S256x3072_1_0_0_1_n_n_wf : DotDims.WF S256x1024 S1024x3072 S256x3072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S8192x32.size a
  hwx0_1 : ∀ i : grid0.Coords, EltTy.bits .f32 = 32 ∨ (Rect.block (s := S8192x32) S256x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S8192x2048.size a
  hwx0_2 : ∀ i : grid0.Coords, EltTy.bits .f32 = 32 ∨ (Rect.block (s := S8192x2048) S256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S8192x256.size a
  hwx0_3 : ∀ i : grid0.Coords, EltTy.bits .f32 = 32 ∨ (Rect.block (s := S8192x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x1024.size a ≤ S32x1024.size a
  hwx0_5 : ∀ i : grid0.Coords, EltTy.bits .bf16 = 32 ∨ (Rect.block (s := S32x1024) S32x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048x1024.size a ≤ S2048x1024.size a
  hwx0_6 : ∀ i : grid0.Coords, EltTy.bits .bf16 = 32 ∨ (Rect.block (s := S2048x1024) S2048x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x512.size a ≤ S1024x512.size a
  hwx0_8 : ∀ i : grid0.Coords, EltTy.bits .bf16 = 32 ∨ (Rect.block (s := S1024x512) S1024x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x3072.size a ≤ S256x3072.size a
  hwx0_10 : ∀ i : grid0.Coords, EltTy.bits .bf16 = 32 ∨ (Rect.block (s := S256x3072) S256x3072.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S32x3072.size a ≤ S32x3072.size a
  hwx0_11 : ∀ i : grid0.Coords, EltTy.bits .bf16 = 32 ∨ (Rect.block (s := S32x3072) S32x3072.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1024x3072.size a ≤ S1024x3072.size a
  hwx0_12 : ∀ i : grid0.Coords, EltTy.bits .bf16 = 32 ∨ (Rect.block (s := S1024x3072) S1024x3072.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x3072.size a ≤ S1x3072.size a
  hwx0_13 : ∀ i : grid0.Coords, EltTy.bits .f32 = 32 ∨ (Rect.block (s := S1x3072) S1x3072.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x3072.size a ≤ S1x3072.size a
  hwx0_14 : ∀ i : grid0.Coords, EltTy.bits .f32 = 32 ∨ (Rect.block (s := S1x3072) S1x3072.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S256x256.size a ≤ S8192x256.size a
  hwx0_15 : ∀ i : grid0.Coords, EltTy.bits .f32 = 32 ∨ (Rect.block (s := S8192x256) S256x256.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S256x256.size a ≤ S8192x256.size a
  hwx0_16 : ∀ i : grid0.Coords, EltTy.bits .f32 = 32 ∨ (Rect.block (s := S8192x256) S256x256.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S256x256.size a ≤ S8192x256.size a
  hwx0_17 : ∀ i : grid0.Coords, EltTy.bits .f32 = 32 ∨ (Rect.block (s := S8192x256) S256x256.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S256x1024.size a ≤ S8192x1024.size a
  hwx0_18 : ∀ i : grid0.Coords, EltTy.bits .f32 = 32 ∨ (Rect.block (s := S8192x1024) S256x1024.size (cc0_transform_18 i) (hinb0_18 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x32_S32x1024_S256x1024_1_0_0_1_n_n : DotDims S256x32 S32x1024 S256x1024 where
  lhsContracting := [1]
  rhsContracting := [0]
  lhsNonContracting := [0]
  rhsNonContracting := [1]
  lhsBatch := []
  rhsBatch := []
  wf := dot_S256x32_S32x1024_S256x1024_1_0_0_1_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf
def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf
def dot_S256x256_S256x3072_S256x3072_1_0_0_1_n_n : DotDims S256x256 S256x3072 S256x3072 where
  lhsContracting := [1]
  rhsContracting := [0]
  lhsNonContracting := [0]
  rhsNonContracting := [1]
  lhsBatch := []
  rhsBatch := []
  wf := dot_S256x256_S256x3072_S256x3072_1_0_0_1_n_n_wf
def dot_S256x32_S32x3072_S256x3072_1_0_0_1_n_n : DotDims S256x32 S32x3072 S256x3072 where
  lhsContracting := [1]
  rhsContracting := [0]
  lhsNonContracting := [0]
  rhsNonContracting := [1]
  lhsBatch := []
  rhsBatch := []
  wf := dot_S256x32_S32x3072_S256x3072_1_0_0_1_n_n_wf
def dot_S256x1024_S1024x3072_S256x3072_1_0_0_1_n_n : DotDims S256x1024 S1024x3072 S256x3072 where
  lhsContracting := [1]
  rhsContracting := [0]
  lhsNonContracting := [0]
  rhsNonContracting := [1]
  lhsBatch := []
  rhsBatch := []
  wf := dot_S256x1024_S1024x3072_S256x3072_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v3) S32x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v5) S2048x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v14) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v6) S1024x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v15) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_call0_v9) S256x3072.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_call0_v11) S32x3072.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_call0_v13) S1024x3072.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_call0_v16) S1x3072.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_call0_v17) S1x3072.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v0_0) S256x256.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v0_1) S256x256.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v0_2) S256x256.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v0_3) S256x1024.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S8192x32 : Shape := ⟨2, ![8192, 32]⟩
abbrev S8192x2048 : Shape := ⟨2, ![8192, 2048]⟩
abbrev S8192x256 : Shape := ⟨2, ![8192, 256]⟩
abbrev S3104x1024 : Shape := ⟨2, ![3104, 1024]⟩
abbrev S1024 : Shape := ⟨1, ![1024]⟩
abbrev S1024x512 : Shape := ⟨2, ![1024, 512]⟩
abbrev S512 : Shape := ⟨1, ![512]⟩
abbrev S3072x288 : Shape := ⟨2, ![3072, 288]⟩
abbrev S3072x1024 : Shape := ⟨2, ![3072, 1024]⟩
abbrev S3072 : Shape := ⟨1, ![3072]⟩
abbrev S8192x3104 : Shape := ⟨2, ![8192, 3104]⟩
abbrev S1x1024 : Shape := ⟨2, ![1, 1024]⟩
abbrev S_ : Shape := ⟨0, ![]⟩
abbrev S8192x512 : Shape := ⟨2, ![8192, 512]⟩
abbrev S1x512 : Shape := ⟨2, ![1, 512]⟩
abbrev S8192x288 : Shape := ⟨2, ![8192, 288]⟩
abbrev S288x3072 : Shape := ⟨2, ![288, 3072]⟩
abbrev S8192x3072 : Shape := ⟨2, ![8192, 3072]⟩
abbrev S1x3072 : Shape := ⟨2, ![1, 3072]⟩
abbrev S1024x3072 : Shape := ⟨2, ![1024, 3072]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x32, .f32⟩
  | .hbm, ⟨2, _⟩ => ⟨S8192x2048, .f32⟩
  | .hbm, ⟨3, _⟩ => ⟨S8192x256, .f32⟩
  | .hbm, ⟨4, _⟩ => ⟨S3104x1024, .f32⟩
  | .hbm, ⟨5, _⟩ => ⟨S1024, .f32⟩
  | .hbm, ⟨6, _⟩ => ⟨S1024x512, .f32⟩
  | .hbm, ⟨7, _⟩ => ⟨S512, .f32⟩
  | .hbm, ⟨8, _⟩ => ⟨S3072x288, .f32⟩
  | .hbm, ⟨9, _⟩ => ⟨S3072x1024, .f32⟩
  | .hbm, ⟨10, _⟩ => ⟨S3072, .f32⟩
  | .hbm, ⟨11, _⟩ => ⟨S3072, .f32⟩
  | .hbm, ⟨12, _⟩ => ⟨S8192x3104, .f32⟩
  | .hbm, ⟨13, _⟩ => ⟨S8192x1024, .f32⟩
  | .hbm, ⟨14, _⟩ => ⟨S1x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x512, .f32⟩
  | .hbm, ⟨21, _⟩ => ⟨S1x512, .f32⟩
  | .hbm, ⟨22, _⟩ => ⟨S8192x512, .f32⟩
  | .hbm, ⟨23, _⟩ => ⟨S8192x512, .f32⟩
  | .hbm, ⟨24, _⟩ => ⟨S8192x256, .f32⟩
  | .hbm, ⟨25, _⟩ => ⟨S8192x256, .f32⟩
  | .hbm, ⟨26, _⟩ => ⟨S8192x256, .f32⟩
  | .hbm, ⟨27, _⟩ => ⟨S8192x256, .f32⟩
  | .hbm, ⟨28, _⟩ => ⟨S8192x256, .f32⟩
  | .hbm, ⟨29, _⟩ => ⟨S8192x288, .f32⟩
  | .hbm, ⟨30, _⟩ => ⟨S288x3072, .f32⟩
  | .hbm, ⟨31, _⟩ => ⟨S8192x3072, .f32⟩
  | .hbm, ⟨32, _⟩ => ⟨S1x3072, .f32⟩
  | .hbm, ⟨33, _⟩ => ⟨S8192x3072, .f32⟩
  | .hbm, ⟨34, _⟩ => ⟨S8192x3072, .f32⟩
  | .hbm, ⟨35, _⟩ => ⟨S1024x3072, .f32⟩
  | .hbm, ⟨36, _⟩ => ⟨S8192x3072, .f32⟩
  | .hbm, ⟨37, _⟩ => ⟨S1x3072, .f32⟩
  | .hbm, ⟨38, _⟩ => ⟨S8192x3072, .f32⟩
  | .hbm, ⟨39, _⟩ => ⟨S8192x3072, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call0_cst : Ref sig .tc := ⟨.hbm, 17, rfl⟩
abbrev main_call0_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst : Ref sig .tc := ⟨.hbm, 49, rfl⟩
abbrev main_v35 : Ref sig .tc := ⟨.hbm, 50, rfl⟩
abbrev main_v36 : Ref sig .tc := ⟨.hbm, 51, rfl⟩
abbrev main_cst_0 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_1 : Ref sig .tc := ⟨.hbm, 58, rfl⟩
abbrev main_v42 : Ref sig .tc := ⟨.hbm, 59, rfl⟩
abbrev main_v43 : Ref sig .tc := ⟨.hbm, 60, rfl⟩
abbrev main_cst_2 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_3 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]

class Facts₀ : Prop where
  concatenates_S8192x1024_S8192x32_S8192x2048_S8192x3104_d1 : Shape.Concatenates [S8192x1024, S8192x32, S8192x2048] S8192x3104 1
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  slices_S8192x512_S8192x256_0_0 : S8192x512.Slices ![0, 0] S8192x256
  slices_S8192x512_S8192x256_0_256 : S8192x512.Slices ![0, 256] S8192x256
  concatenates_S8192x256_S8192x32_S8192x288_d1 : Shape.Concatenates [S8192x256, S8192x32] S8192x288 1
  transposes_S3072x288_S288x3072_1_0 : S3072x288.Transposes [1, 0] S288x3072
  bcast_S3072_S1x3072_1 : S3072.BroadcastsInDim S1x3072 (![1] : Fin 1 → Fin S1x3072.rank)
  bcast_S1x3072_S8192x3072_0_1 : S1x3072.BroadcastsInDim S8192x3072 (![0, 1] : Fin 2 → Fin S8192x3072.rank)
  transposes_S3072x1024_S1024x3072_1_0 : S3072x1024.Transposes [1, 0] S1024x3072
  slices_S8192x3072_S8192x1024_0_0 : S8192x3072.Slices ![0, 0] S8192x1024
  slices_S8192x3072_S8192x1024_0_1024 : S8192x3072.Slices ![0, 1024] S8192x1024
  slices_S8192x3072_S8192x1024_0_2048 : S8192x3072.Slices ![0, 2048] S8192x1024
  dot_S8192x3104_S3104x1024_S8192x1024_1_0_0_1_n_n_wf : DotDims.WF S8192x3104 S3104x1024 S8192x1024 [1] [0] [0] [1] [] []
  dot_S8192x1024_S1024x512_S8192x512_1_0_0_1_n_n_wf : DotDims.WF S8192x1024 S1024x512 S8192x512 [1] [0] [0] [1] [] []
  dot_S8192x288_S288x3072_S8192x3072_1_0_0_1_n_n_wf : DotDims.WF S8192x288 S288x3072 S8192x3072 [1] [0] [0] [1] [] []
  dot_S8192x1024_S1024x3072_S8192x3072_1_0_0_1_n_n_wf : DotDims.WF S8192x1024 S1024x3072 S8192x3072 [1] [0] [0] [1] [] []

variable [Facts₀]

def dot_S8192x3104_S3104x1024_S8192x1024_1_0_0_1_n_n : DotDims S8192x3104 S3104x1024 S8192x1024 where
  lhsContracting := [1]
  rhsContracting := [0]
  lhsNonContracting := [0]
  rhsNonContracting := [1]
  lhsBatch := []
  rhsBatch := []
  wf := dot_S8192x3104_S3104x1024_S8192x1024_1_0_0_1_n_n_wf
def dot_S8192x1024_S1024x512_S8192x512_1_0_0_1_n_n : DotDims S8192x1024 S1024x512 S8192x512 where
  lhsContracting := [1]
  rhsContracting := [0]
  lhsNonContracting := [0]
  rhsNonContracting := [1]
  lhsBatch := []
  rhsBatch := []
  wf := dot_S8192x1024_S1024x512_S8192x512_1_0_0_1_n_n_wf
def dot_S8192x288_S288x3072_S8192x3072_1_0_0_1_n_n : DotDims S8192x288 S288x3072 S8192x3072 where
  lhsContracting := [1]
  rhsContracting := [0]
  lhsNonContracting := [0]
  rhsNonContracting := [1]
  lhsBatch := []
  rhsBatch := []
  wf := dot_S8192x288_S288x3072_S8192x3072_1_0_0_1_n_n_wf
def dot_S8192x1024_S1024x3072_S8192x3072_1_0_0_1_n_n : DotDims S8192x1024 S1024x3072 S8192x3072 where
  lhsContracting := [1]
  rhsContracting := [0]
  lhsNonContracting := [0]
  rhsNonContracting := [1]
  lhsBatch := []
  rhsBatch := []
  wf := dot_S8192x1024_S1024x3072_S8192x3072_1_0_0_1_n_n_wf

class Facts : Prop extends Facts₀ where

variable [Facts]
-- ==== Proof.Spec.lean ====
/-
  One step of a recurrent state-space model, row by row, over the extended reals.

  For one batch row with previous state `s` (1024 entries), previous action `a` (32), observation `o` (2048) and
  noise `e` (256):

    hidden  h q = max ((Σₖ s k · Ws k q + Σₖ a k · Wa k q) + Σₖ o k · Wo k q + b₁ q) 0        (1024 entries)
    affine  y j = Σₖ h k · W₂ k j + b₂ j                                                     (512 entries)
    mean = y restricted to its first 256 entries, variance = its last 256 entries
    sample  x j = mean j + sqrt (variance j) · e j                                           (256 entries)
    input gates   gi j = (Σₖ x k · Wis k j + Σₖ a k · Wia k j) + bih j                        (3072 entries)
    hidden gates  gh j = Σₖ s k · Whh k j + bhh j                                            (3072 entries)
    r = logistic (gi₀ + gh₀), z = logistic (gi₁ + gh₁), n = tanh (gi₂ + r · gh₂)  (thirds of 1024 entries each)
    belief q = (1 - z q) · n q + z q · s q                                                   (1024 entries)

  where Ws, Wa, Wo are the row blocks 0–1023, 1024–1055, 1056–3103 of one 3104 × 1024 matrix, and Wis, Wia the row
  blocks 0–255, 256–287 of the transpose of a 3072 × 288 matrix. A product of the concatenated row (s, a, o) with the
  whole matrix is the sum of the three block products: a finite sum over an index set cut in consecutive ranges is
  the sum of the sums over the ranges, in any commutative additive monoid — no finiteness of the entries is needed.
-/
import Idealize.ShloMosaic.PureOps.Ideal
import Idealize.ShloMosaic.PureOps.IdealRules
import Idealize.ShloMosaic.Lib.ValueIdx

noncomputable section

namespace Cert.Rssm

open Idealize.ShloMosaic Idealize.ShloMosaic.ValueIdx
open scoped BigOperators

/-! ## Sums over consecutive ranges -/

/-- A sum over `Fin N`, `N = m + n`, is the sum over the first `m` indices plus the sum over the last `n`. -/
theorem sum_two_ranges {M : Type*} [AddCommMonoid M] (m n N : ℕ) (h : m + n = N) (f : Fin N → M) :
    ∑ k : Fin N, f k
      = (∑ k : Fin m, f ⟨k.val, by have := k.isLt; omega⟩) + ∑ k : Fin n, f ⟨m + k.val, by have := k.isLt; omega⟩ := by
  subst h
  rw [Fin.sum_univ_add]
  rfl

/-- The same for three consecutive ranges. -/
theorem sum_three_ranges {M : Type*} [AddCommMonoid M] (l m n N : ℕ) (h : l + m + n = N) (f : Fin N → M) :
    ∑ k : Fin N, f k
      = ((∑ k : Fin l, f ⟨k.val, by have := k.isLt; omega⟩) + ∑ k : Fin m, f ⟨l + k.val, by have := k.isLt; omega⟩)
        + ∑ k : Fin n, f ⟨l + m + k.val, by have := k.isLt; omega⟩ := by
  rw [sum_two_ranges (l + m) n N h f, sum_two_ranges l m (l + m) rfl fun k => f ⟨k.val, by have := k.isLt; omega⟩]

/-! ## The two float words the programs write -/

/-- The word of the float 1.0. -/
abbrev one : EReal := Ideal.ofBits .f32 0x3F800000#32
/-- The word of the float 0.0. -/
abbrev zero : EReal := Ideal.ofBits .f32 0x00000000#32

/-- The word of 1.0 denotes the real number one. -/
theorem one_eq : one = 1 := IdealRules.sign_bit.ideal_onePat .f32

/-- The logistic function spelt as a quotient, with the word of 1.0 for both ones. -/
theorem logistic_eq_quotient (x : EReal) : Ideal.div one (one + Ideal.exp (-x)) = Ideal.logistic x := by
  rw [one_eq]
  rfl

/-! ## One batch row -/

/-- The hidden layer of the representation network. -/
def hiddenRow (s : Fin 1024 → EReal) (a : Fin 32 → EReal) (o : Fin 2048 → EReal)
    (Ws : Fin 1024 → Fin 1024 → EReal) (Wa : Fin 32 → Fin 1024 → EReal) (Wo : Fin 2048 → Fin 1024 → EReal)
    (b1 : Fin 1024 → EReal) (q : Fin 1024) : EReal :=
  max ((((∑ k, s k * Ws k q) + ∑ k, a k * Wa k q) + ∑ k, o k * Wo k q) + b1 q) zero

/-- The output layer of the representation network. -/
def affine (h : Fin 1024 → EReal) (W2 : Fin 1024 → Fin 512 → EReal) (b2 : Fin 512 → EReal) (j : Fin 512) : EReal :=
  (∑ k, h k * W2 k j) + b2 j

/-- Entry `j` of the first half of a 512-vector. -/
def lo (j : Fin 256) : Fin 512 := ⟨j.val, by have := j.isLt; omega⟩
/-- Entry `j` of the second half of a 512-vector. -/
def hi (j : Fin 256) : Fin 512 := ⟨j.val + 256, by have := j.isLt; omega⟩

/-- The reparameterised sample from the mean (first half of `y`) and the variance (second half). -/
def sample (y : Fin 512 → EReal) (e : Fin 256 → EReal) (j : Fin 256) : EReal :=
  y (lo j) + Ideal.sqrt (y (hi j)) * e j

/-- The recurrent cell's input-side pre-activations. -/
def gateIn (x : Fin 256 → EReal) (a : Fin 32 → EReal) (Wis : Fin 256 → Fin 3072 → EReal)
    (Wia : Fin 32 → Fin 3072 → EReal) (bih : Fin 3072 → EReal) (j : Fin 3072) : EReal :=
  ((∑ k, x k * Wis k j) + ∑ k, a k * Wia k j) + bih j

/-- The recurrent cell's state-side pre-activations. -/
def gateHid (s : Fin 1024 → EReal) (Whh : Fin 1024 → Fin 3072 → EReal) (bhh : Fin 3072 → EReal) (j : Fin 3072) :
    EReal :=
  (∑ k, s k * Whh k j) + bhh j

/-- Entry `q` of the first, second, third third of a 3072-vector. -/
def third0 (q : Fin 1024) : Fin 3072 := ⟨q.val, by have := q.isLt; omega⟩
def third1 (q : Fin 1024) : Fin 3072 := ⟨q.val + 1024, by have := q.isLt; omega⟩
def third2 (q : Fin 1024) : Fin 3072 := ⟨q.val + 2048, by have := q.isLt; omega⟩

/-- The new belief state from the two pre-activation vectors and the previous state. -/
def belief (gi gh : Fin 3072 → EReal) (s : Fin 1024 → EReal) (q : Fin 1024) : EReal :=
  (one - Ideal.logistic (gi (third1 q) + gh (third1 q)))
      * Ideal.tanh (gi (third2 q) + Ideal.logistic (gi (third0 q) + gh (third0 q)) * gh (third2 q))
    + Ideal.logistic (gi (third1 q) + gh (third1 q)) * s q

/-! ## The weights as the programs' argument arrays hold them -/

abbrev A (r c : ℕ) : Type := (⟨2, ![r, c]⟩ : Shape).Idx → EReal
abbrev B (n : ℕ) : Type := (⟨1, ![n]⟩ : Shape).Idx → EReal

/-- Row `b` of a matrix. -/
def row {r c : ℕ} (X : A r c) (b : Fin r) : Fin c → EReal := fun k => X (ix2 b k)
/-- A matrix as a function of its two coordinates. -/
def mat {r c : ℕ} (X : A r c) : Fin r → Fin c → EReal := fun k j => X (ix2 k j)
/-- A vector as a function of its coordinate. -/
def vec {n : ℕ} (v : B n) : Fin n → EReal := fun j => v (ix1 j)

/-- Rows 0–1023, 1024–1055, 1056–3103 of the first layer's weight matrix. -/
def W1s (W1 : A 3104 1024) : Fin 1024 → Fin 1024 → EReal := fun k q => W1 (ix2 ⟨k.val, by have := k.isLt; omega⟩ q)
def W1a (W1 : A 3104 1024) : Fin 32 → Fin 1024 → EReal := fun k q => W1 (ix2 ⟨1024 + k.val, by have := k.isLt; omega⟩ q)
def W1o (W1 : A 3104 1024) : Fin 2048 → Fin 1024 → EReal := fun k q => W1 (ix2 ⟨1056 + k.val, by have := k.isLt; omega⟩ q)

/-- Rows 0–255, 256–287 of the transposed input-gate matrix; the transposed state-gate matrix. -/
def Wis (Wih : A 3072 288) : Fin 256 → Fin 3072 → EReal := fun k j => Wih (ix2 j ⟨k.val, by have := k.isLt; omega⟩)
def Wia (Wih : A 3072 288) : Fin 32 → Fin 3072 → EReal := fun k j => Wih (ix2 j ⟨256 + k.val, by have := k.isLt; omega⟩)
def WhhT (Whh : A 3072 1024) : Fin 1024 → Fin 3072 → EReal := fun k j => Whh (ix2 j k)

/-! ## The four results, for every batch row, as functions of the twelve arguments -/

section Whole
variable {n : ℕ} (ps : A n 1024) (pa : A n 32) (obs : A n 2048) (eps : A n 256) (W1 : A 3104 1024) (b1 : B 1024)
  (W2 : A 1024 512) (b2 : B 512) (Wih : A 3072 288) (Whh : A 3072 1024) (bih bhh : B 3072)

/-- Row `b`'s affine output (mean and variance together). -/
def outRow (b : Fin n) : Fin 512 → EReal :=
  affine (hiddenRow (row ps b) (row pa b) (row obs b) (W1s W1) (W1a W1) (W1o W1) (vec b1)) (mat W2) (vec b2)

/-- Row `b`'s sample. -/
def sampleRow (b : Fin n) : Fin 256 → EReal := sample (outRow ps pa obs W1 b1 W2 b2 b) (row eps b)

/-- Row `b`'s belief. -/
def beliefRow (b : Fin n) : Fin 1024 → EReal :=
  belief (gateIn (sampleRow ps pa obs eps W1 b1 W2 b2 b) (row pa b) (Wis Wih) (Wia Wih) (vec bih))
    (gateHid (row ps b) (WhhT Whh) (vec bhh)) (row ps b)

/-- The mean, variance, sample and belief arrays. -/
def meanG : A n 256 := fun i => outRow ps pa obs W1 b1 W2 b2 (i 0) (lo (i 1))
def varG : A n 256 := fun i => outRow ps pa obs W1 b1 W2 b2 (i 0) (hi (i 1))
def sampleG : A n 256 := fun i => sampleRow ps pa obs eps W1 b1 W2 b2 (i 0) (i 1)
def beliefG : A n 1024 := fun i => beliefRow ps pa obs eps W1 b1 W2 b2 Wih Whh bih bhh (i 0) (i 1)

end Whole

end Cert.Rssm

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.LibRowBroadcasts.lean ====
/-
  Rows, columns and bias vectors broadcast, read at an index.

  The complements of the keepdims column forms: a `1 × b` row broadcast down `a` rows as a vector broadcast and as a
  dimension broadcast, an `a × 1` column broadcast across `c` columns as a dimension broadcast — each reads, at
  `(p, q)`, the operand at its one free coordinate — and the fact that a length-`b` vector cast to a `1 × b` row is the
  same array as that vector broadcast along dimension 1 (two spellings of "add a leading unit axis"). For any element
  type and any extents.
-/
import Idealize.ShloMosaic.Lib.Pipeline.Value
import Idealize.ShloMosaic.Lib.ValueIdx

noncomputable section

namespace Cert.Lib.Rows

open Idealize.ShloMosaic Idealize.ShloMosaic.ValueIdx

variable {a c b : Nat}

/-- A `1 × b` row broadcast down the rows reads, at `(p, q)`, the row at `q`. -/
theorem bcastRow_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- An `a × 1` column broadcast in dimensions `[0, 1]` reads, at `(p, k)`, the column at `p`. -/
theorem dimCol_apply {α : Type} (v : (⟨2, ![a, 1]⟩ : Shape).Idx → α)
    (h : (⟨2, ![a, 1]⟩ : Shape).BroadcastsInDim ⟨2, ![a, c]⟩ ![0, 1]) (p : Fin a) (k : Fin c) :
    broadcastInDim ⟨2, ![a, c]⟩ ![0, 1] h v (ix2 p k) = v (ix2 p (0 : Fin 1)) := by
  refine broadcastInDim_apply _ h v (ix2 p k) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else k.val
    rw [if_pos rfl]

/-- A `1 × b` row broadcast in dimensions `[0, 1]` reads, at `(p, q)`, the row at `q`. -/
theorem dimRow_apply {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- A length-`b` vector cast to a `1 × b` row is the vector broadcast along dimension 1: both read, at `(·, q)`, the
    vector at `q`. -/
theorem castRow_eq_dimRow {α : Type} (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  have hu : u.val = 0 := by omega
  have e1 : shapeCast ⟨2, ![1, b]⟩ v hc (ix2 u q) = v (ix1 q) :=
    shapeCast_apply v hc _ _ (by
      rw [Shape.rowMajor_val_two, Shape.rowMajor_val_one]
      show q.val = u.val * b + q.val
      rw [hu, Nat.zero_mul, Nat.zero_add])
  have e2 : broadcastInDim ⟨2, ![1, b]⟩ ![1] hb v (ix2 u q) = v (ix1 q) :=
    broadcastInDim_apply _ hb v (ix2 u q) (ix1 q) fun ax => by
      match ax with
      | ⟨0, _⟩ =>
        show q.val = if b = 1 then 0 else q.val
        split
        · have := q.isLt; omega
        · rfl
  rw [e1, e2]

end Cert.Lib.Rows

end
-- ==== Proof.KernelBody.lean ====
/-
  What the kernel body computes for one block of 256 batch rows, read at an index.

  The body's arithmetic is two pure terms of the blocks it loads: the affine output of the representation network
  (a 256 × 512 array whose halves are the mean and the variance) and the belief (256 × 1024). Each is a composition
  of matrix products into a zero accumulator, bias rows broadcast down the 256 rows, pointwise operations and column
  slices. At the exact values a product read at (p, q) is the sum over k of the left operand at (p, k) times the right
  operand at (k, q); a rounding to a narrower float format is the identity; a bias row reads its entry q; a column
  slice reads the same row at a shifted column. So entry (p, ·) of each term is the row function of the
  specification applied to row p of the activation blocks and to the weight blocks as matrices.
-/
import proofs.«105895_j6665789243871_2_alg».proof.Proof.Gen.KernelIdeal.Skeleton
import proofs.«105895_j6665789243871_2_alg».proof.Proof.Spec
import proofs.«105895_j6665789243871_2_alg».proof.Proof.LibPlainDot
import proofs.«105895_j6665789243871_2_alg».proof.Proof.LibRowBroadcasts
import Idealize.ShloMosaic.Lib.Pipeline.Value
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx Cert.Rssm
open scoped BigOperators

/-- The one row of a 1 × n array, as a function of the column. -/
def row1 {n : ℕ} (v : A 1 n) : Fin n → EReal := fun j => v (ix2 (0 : Fin 1) j)

/-! ## A product into the zero accumulator whose right operand passed an identity cast -/

theorem prod_apply {a c b : ℕ} {φ₁ φ₂ : FTy}
    (wf : DotDims.WF ⟨2, ![a, c]⟩ ⟨2, ![c, b]⟩ ⟨2, ![a, b]⟩ [1] [0] [0] [1] [] [])
    (lhs : FVec Ideal ⟨2, ![a, c]⟩ φ₁) (w : FVec Ideal ⟨2, ![c, b]⟩ φ₂)
    (hs : (⟨2, ![c, b]⟩ : Shape).ShapeCasts ⟨2, ![c, b]⟩) (p : Fin a) (q : Fin b) :
    matmul (Cert.Lib.PlainDot.dims wf) none lhs (shapeCast ⟨2, ![c, b]⟩ w hs) (constant ⟨2, ![a, b]⟩ .f32 0x00000000#32) (ix2 p q)
      = ∑ k : Fin c, lhs (ix2 p k) * w (ix2 k q) := by
  rw [shapeCast_self]
  exact Cert.Lib.PlainDot.matmul_zero_apply wf none lhs w p q

/-- A bias row that passed an identity cast, broadcast down the rows. -/
theorem bias_apply {a b : ℕ} (v : A 1 b) (hs : (⟨2, ![1, b]⟩ : Shape).ShapeCasts ⟨2, ![1, b]⟩)
    (h : (⟨2, ![1, b]⟩ : Shape).Broadcasts ⟨2, ![a, b]⟩) (p : Fin a) (q : Fin b) :
    broadcastTo ⟨2, ![a, b]⟩ (shapeCast ⟨2, ![1, b]⟩ v hs) h (ix2 p q) = row1 v q := by
  rw [shapeCast_self]
  exact Cert.Lib.Rows.bcastRow_apply v h p q

/-! ## The hidden layer -/

/-- The hidden activations of a block, as the body's operations. -/
def hiddenVec (x0 : FVec Ideal S256x1024 .f32) (x1 : FVec Ideal S256x32 .f32) (x2 : FVec Ideal S256x2048 .f32)
    (w1s : FVec Ideal S1024x1024 .bf16) (w1a : FVec Ideal S32x1024 .bf16) (w1o : FVec Ideal S2048x1024 .bf16)
    (b1 : FVec Ideal S1x1024 .f32) : FVec Ideal S256x1024 .f32 :=
  maximumf
    (addf (addf (addf
      (matmul dot_S256x1024_S1024x1024_S256x1024_1_0_0_1_n_n none (k0_pay1 (F := Ideal) x0) (shapeCast S1024x1024 w1s shapeCasts_S1024x1024_S1024x1024) (constant S256x1024 .f32 0x00000000#32))
      (matmul dot_S256x32_S32x1024_S256x1024_1_0_0_1_n_n none (k0_pay2 (F := Ideal) x1) (shapeCast S32x1024 w1a shapeCasts_S32x1024_S32x1024) (constant S256x1024 .f32 0x00000000#32)))
      (matmul dot_S256x2048_S2048x1024_S256x1024_1_0_0_1_n_n none (truncf .bf16 x2 bitsLt_bf16_f32) (shapeCast S2048x1024 w1o shapeCasts_S2048x1024_S2048x1024) (constant S256x1024 .f32 0x00000000#32)))
      (broadcastTo S256x1024 (shapeCast S1x1024 b1 shapeCasts_S1x1024_S1x1024) broadcasts_S1x1024_S256x1024))
    (broadcast S256x1024 (Scalar.ofBits .f32 0x00000000#32))

theorem hiddenVec_apply (x0 : FVec Ideal S256x1024 .f32) (x1 : FVec Ideal S256x32 .f32) (x2 : FVec Ideal S256x2048 .f32)
    (w1s : FVec Ideal S1024x1024 .bf16) (w1a : FVec Ideal S32x1024 .bf16) (w1o : FVec Ideal S2048x1024 .bf16)
    (b1 : FVec Ideal S1x1024 .f32) (p : Fin 256) (q : Fin 1024) :
    hiddenVec x0 x1 x2 w1s w1a w1o b1 (ix2 p q)
      = hiddenRow (row x0 p) (row x1 p) (row x2 p) (mat w1s) (mat w1a) (mat w1o) (row1 b1) q := by
  unfold hiddenVec hiddenRow
  simp only [maximumf_apply, addf_apply, broadcast_apply]
  rw [show dot_S256x1024_S1024x1024_S256x1024_1_0_0_1_n_n = Cert.Lib.PlainDot.dims dot_S256x1024_S1024x1024_S256x1024_1_0_0_1_n_n_wf from rfl,
    show dot_S256x32_S32x1024_S256x1024_1_0_0_1_n_n = Cert.Lib.PlainDot.dims dot_S256x32_S32x1024_S256x1024_1_0_0_1_n_n_wf from rfl,
    show dot_S256x2048_S2048x1024_S256x1024_1_0_0_1_n_n = Cert.Lib.PlainDot.dims dot_S256x2048_S2048x1024_S256x1024_1_0_0_1_n_n_wf from rfl,
    prod_apply, prod_apply, prod_apply, bias_apply]
  rfl

/-! ## The affine output -/

/-- The body's affine output over the hidden activations. -/
theorem pay3_eq (x0 : FVec Ideal S256x1024 .f32) (x1 : FVec Ideal S256x32 .f32) (x2 : FVec Ideal S256x2048 .f32)
    (w1s : FVec Ideal S1024x1024 .bf16) (w1a : FVec Ideal S32x1024 .bf16) (w1o : FVec Ideal S2048x1024 .bf16)
    (b1 : FVec Ideal S1x1024 .f32) (w2 : FVec Ideal S1024x512 .bf16) (b2 : FVec Ideal S1x512 .f32) :
    k0_pay3 (F := Ideal) x0 x1 x2 w1s w1a w1o b1 w2 b2
      = addf (matmul dot_S256x1024_S1024x512_S256x512_1_0_0_1_n_n none
            (truncf .bf16 (hiddenVec x0 x1 x2 w1s w1a w1o b1) bitsLt_bf16_f32)
            (shapeCast S1024x512 w2 shapeCasts_S1024x512_S1024x512) (constant S256x512 .f32 0x00000000#32))
          (broadcastTo S256x512 (shapeCast S1x512 b2 shapeCasts_S1x512_S1x512) broadcasts_S1x512_S256x512) := rfl

/-- Entry (p, j) of the affine output is the specification's, of row p. -/
theorem pay3_apply (x0 : FVec Ideal S256x1024 .f32) (x1 : FVec Ideal S256x32 .f32) (x2 : FVec Ideal S256x2048 .f32)
    (w1s : FVec Ideal S1024x1024 .bf16) (w1a : FVec Ideal S32x1024 .bf16) (w1o : FVec Ideal S2048x1024 .bf16)
    (b1 : FVec Ideal S1x1024 .f32) (w2 : FVec Ideal S1024x512 .bf16) (b2 : FVec Ideal S1x512 .f32)
    (p : Fin 256) (j : Fin 512) :
    k0_pay3 (F := Ideal) x0 x1 x2 w1s w1a w1o b1 w2 b2 (ix2 p j)
      = affine (hiddenRow (row x0 p) (row x1 p) (row x2 p) (mat w1s) (mat w1a) (mat w1o) (row1 b1)) (mat w2) (row1 b2) j := by
  rw [pay3_eq]
  unfold affine
  simp only [addf_apply]
  rw [show dot_S256x1024_S1024x512_S256x512_1_0_0_1_n_n = Cert.Lib.PlainDot.dims dot_S256x1024_S1024x512_S256x512_1_0_0_1_n_n_wf from rfl,
    prod_apply, bias_apply]
  refine congrArg (· + row1 b2 j) (Finset.sum_congr rfl fun k _ => ?_)
  refine congrArg (· * w2 (ix2 k j)) ?_
  exact hiddenVec_apply x0 x1 x2 w1s w1a w1o b1 p k

/-! ## Mean, variance and sample -/

section Halves
variable (x0 : FVec Ideal S256x1024 .f32) (x1 : FVec Ideal S256x32 .f32) (x2 : FVec Ideal S256x2048 .f32)
  (w1s : FVec Ideal S1024x1024 .bf16) (w1a : FVec Ideal S32x1024 .bf16) (w1o : FVec Ideal S2048x1024 .bf16)
  (b1 : FVec Ideal S1x1024 .f32) (w2 : FVec Ideal S1024x512 .bf16) (b2 : FVec Ideal S1x512 .f32)

/-- The mean block: the first 256 columns of the affine output. -/
theorem pay4_apply (p : Fin 256) (j : Fin 256) :
    k0_pay4 (F := Ideal) x0 x1 x2 w1s w1a w1o b1 w2 b2 (ix2 p j)
      = affine (hiddenRow (row x0 p) (row x1 p) (row x2 p) (mat w1s) (mat w1a) (mat w1o) (row1 b1)) (mat w2) (row1 b2) (lo j) :=
  (slice2_axis1_apply 0 (k0_pay3 (F := Ideal) x0 x1 x2 w1s w1a w1o b1 w2 b2) slices_S256x512_o0_0_S256x256 p j (lo j)
      (by show j.val = 0 + j.val; omega)).trans
    (pay3_apply x0 x1 x2 w1s w1a w1o b1 w2 b2 p (lo j))

/-- The variance block: the last 256 columns of the affine output. -/
theorem pay5_apply (p : Fin 256) (j : Fin 256) :
    k0_pay5 (F := Ideal) x0 x1 x2 w1s w1a w1o b1 w2 b2 (ix2 p j)
      = affine (hiddenRow (row x0 p) (row x1 p) (row x2 p) (mat w1s) (mat w1a) (mat w1o) (row1 b1)) (mat w2) (row1 b2) (hi j) :=
  (slice2_axis1_apply 256 (k0_pay3 (F := Ideal) x0 x1 x2 w1s w1a w1o b1 w2 b2) slices_S256x512_o0_256_S256x256 p j (hi j)
      (by show j.val + 256 = 256 + j.val; omega)).trans
    (pay3_apply x0 x1 x2 w1s w1a w1o b1 w2 b2 p (hi j))

/-- The sample block, row p: mean plus the square root of the variance times the noise. -/
theorem sample_row (e : FVec Ideal S256x256 .f32) (p : Fin 256) :
    row (k0_pay6 (F := Ideal) e (k0_pay4 (F := Ideal) x0 x1 x2 w1s w1a w1o b1 w2 b2) (k0_pay5 (F := Ideal) x0 x1 x2 w1s w1a w1o b1 w2 b2)) p
      = sample (affine (hiddenRow (row x0 p) (row x1 p) (row x2 p) (mat w1s) (mat w1a) (mat w1o) (row1 b1)) (mat w2) (row1 b2))
          (row e p) := by
  funext j
  show k0_pay4 (F := Ideal) x0 x1 x2 w1s w1a w1o b1 w2 b2 (ix2 p j)
      + Ideal.sqrt (k0_pay5 (F := Ideal) x0 x1 x2 w1s w1a w1o b1 w2 b2 (ix2 p j)) * e (ix2 p j) = _
  rw [pay4_apply, pay5_apply]
  rfl

end Halves

/-! ## The recurrent cell -/

/-- The input-side pre-activations of a block, as the body's operations. -/
def giVec (x : FVec Ideal S256x256 .f32) (a : FVec Ideal S256x32 .bf16) (wihs : FVec Ideal S256x3072 .bf16)
    (wiha : FVec Ideal S32x3072 .bf16) (bih : FVec Ideal S1x3072 .f32) : FVec Ideal S256x3072 .f32 :=
  addf (addf
      (matmul dot_S256x256_S256x3072_S256x3072_1_0_0_1_n_n none (truncf .bf16 x bitsLt_bf16_f32) (shapeCast S256x3072 wihs shapeCasts_S256x3072_S256x3072) (constant S256x3072 .f32 0x00000000#32))
      (matmul dot_S256x32_S32x3072_S256x3072_1_0_0_1_n_n none a (shapeCast S32x3072 wiha shapeCasts_S32x3072_S32x3072) (constant S256x3072 .f32 0x00000000#32)))
    (broadcastTo S256x3072 (shapeCast S1x3072 bih shapeCasts_S1x3072_S1x3072) broadcasts_S1x3072_S256x3072)

/-- The state-side pre-activations of a block, as the body's operations. -/
def ghVec (s : FVec Ideal S256x1024 .bf16) (whh : FVec Ideal S1024x3072 .bf16) (bhh : FVec Ideal S1x3072 .f32) :
    FVec Ideal S256x3072 .f32 :=
  addf (matmul dot_S256x1024_S1024x3072_S256x3072_1_0_0_1_n_n none s (shapeCast S1024x3072 whh shapeCasts_S1024x3072_S1024x3072) (constant S256x3072 .f32 0x00000000#32))
    (broadcastTo S256x3072 (shapeCast S1x3072 bhh shapeCasts_S1x3072_S1x3072) broadcasts_S1x3072_S256x3072)

theorem giVec_apply (x : FVec Ideal S256x256 .f32) (a : FVec Ideal S256x32 .bf16) (wihs : FVec Ideal S256x3072 .bf16)
    (wiha : FVec Ideal S32x3072 .bf16) (bih : FVec Ideal S1x3072 .f32) (p : Fin 256) (j : Fin 3072) :
    giVec x a wihs wiha bih (ix2 p j) = gateIn (row x p) (row a p) (mat wihs) (mat wiha) (row1 bih) j := by
  unfold giVec gateIn
  simp only [addf_apply]
  rw [show dot_S256x256_S256x3072_S256x3072_1_0_0_1_n_n = Cert.Lib.PlainDot.dims dot_S256x256_S256x3072_S256x3072_1_0_0_1_n_n_wf from rfl,
    show dot_S256x32_S32x3072_S256x3072_1_0_0_1_n_n = Cert.Lib.PlainDot.dims dot_S256x32_S32x3072_S256x3072_1_0_0_1_n_n_wf from rfl,
    prod_apply, prod_apply, bias_apply]
  rfl

theorem ghVec_apply (s : FVec Ideal S256x1024 .bf16) (whh : FVec Ideal S1024x3072 .bf16) (bhh : FVec Ideal S1x3072 .f32)
    (p : Fin 256) (j : Fin 3072) :
    ghVec s whh bhh (ix2 p j) = gateHid (row s p) (mat whh) (row1 bhh) j := by
  unfold ghVec gateHid
  simp only [addf_apply]
  rw [show dot_S256x1024_S1024x3072_S256x3072_1_0_0_1_n_n = Cert.Lib.PlainDot.dims dot_S256x1024_S1024x3072_S256x3072_1_0_0_1_n_n_wf from rfl,
    prod_apply, bias_apply]
  rfl

/-- The gates and the convex combination, as the body's operations over the two pre-activation vectors. -/
def gruVec (gi gh : FVec Ideal S256x3072 .f32) (s : FVec Ideal S256x1024 .f32) : FVec Ideal S256x1024 .f32 :=
  addf
    (mulf
      (subf (broadcast S256x1024 (Scalar.ofBits .f32 0x3F800000#32))
        (logistic (addf (extractStridedSlice S256x1024 ![0, 1024] gi slices_S256x3072_o0_1024_S256x1024)
          (extractStridedSlice S256x1024 ![0, 1024] gh slices_S256x3072_o0_1024_S256x1024))))
      (tanh (addf (extractStridedSlice S256x1024 ![0, 2048] gi slices_S256x3072_o0_2048_S256x1024)
        (mulf
          (logistic (addf (extractStridedSlice S256x1024 ![0, 0] gi slices_S256x3072_o0_0_S256x1024)
            (extractStridedSlice S256x1024 ![0, 0] gh slices_S256x3072_o0_0_S256x1024)))
          (extractStridedSlice S256x1024 ![0, 2048] gh slices_S256x3072_o0_2048_S256x1024)))))
    (mulf
      (logistic (addf (extractStridedSlice S256x1024 ![0, 1024] gi slices_S256x3072_o0_1024_S256x1024)
        (extractStridedSlice S256x1024 ![0, 1024] gh slices_S256x3072_o0_1024_S256x1024)))
      s)

theorem logistic_at {s : Shape} (v : FVec Ideal s .f32) (i : s.Idx) : logistic v i = Ideal.logistic (v i) := rfl
theorem tanh_at {s : Shape} (v : FVec Ideal s .f32) (i : s.Idx) : tanh v i = Ideal.tanh (v i) := rfl

theorem third0_at (g : FVec Ideal S256x3072 .f32) (p : Fin 256) (q : Fin 1024) :
    extractStridedSlice S256x1024 ![0, 0] g slices_S256x3072_o0_0_S256x1024 (ix2 p q) = g (ix2 p (third0 q)) :=
  slice2_axis1_apply 0 g slices_S256x3072_o0_0_S256x1024 p q (third0 q) (by show q.val = 0 + q.val; omega)
theorem third1_at (g : FVec Ideal S256x3072 .f32) (p : Fin 256) (q : Fin 1024) :
    extractStridedSlice S256x1024 ![0, 1024] g slices_S256x3072_o0_1024_S256x1024 (ix2 p q) = g (ix2 p (third1 q)) :=
  slice2_axis1_apply 1024 g slices_S256x3072_o0_1024_S256x1024 p q (third1 q) (by show q.val + 1024 = 1024 + q.val; omega)
theorem third2_at (g : FVec Ideal S256x3072 .f32) (p : Fin 256) (q : Fin 1024) :
    extractStridedSlice S256x1024 ![0, 2048] g slices_S256x3072_o0_2048_S256x1024 (ix2 p q) = g (ix2 p (third2 q)) :=
  slice2_axis1_apply 2048 g slices_S256x3072_o0_2048_S256x1024 p q (third2 q) (by show q.val + 2048 = 2048 + q.val; omega)

theorem gruVec_apply (gi gh : FVec Ideal S256x3072 .f32) (s : FVec Ideal S256x1024 .f32) (p : Fin 256) (q : Fin 1024) :
    gruVec gi gh s (ix2 p q) = belief (row gi p) (row gh p) (row s p) q := by
  unfold gruVec belief
  simp only [addf_apply, mulf_apply, subf_apply, broadcast_apply, logistic_at, tanh_at, third0_at, third1_at, third2_at]
  rfl

/-- The body's belief term is that combination of the two pre-activation vectors. -/
theorem pay7_eq (v0 : FVec Ideal S256x1024 .f32) (v3 : FVec Ideal S256x256 .f32) (v4 : FVec Ideal S256x1024 .bf16)
    (v5 : FVec Ideal S256x32 .bf16) (v32 v33 : FVec Ideal S256x256 .f32) (v38 : FVec Ideal S256x3072 .bf16)
    (v41 : FVec Ideal S32x3072 .bf16) (v45 : FVec Ideal S1x3072 .f32) (v49 : FVec Ideal S1024x3072 .bf16)
    (v52 : FVec Ideal S1x3072 .f32) :
    k0_pay7 (F := Ideal) v0 v3 v4 v5 v32 v33 v38 v41 v45 v49 v52
      = gruVec (giVec (k0_pay6 (F := Ideal) v3 v32 v33) v5 v38 v41 v45) (ghVec v4 v49 v52) v0 := rfl

/-! ## The four stored values of a block, row p -/

section Block
variable (x0 : FVec Ideal S256x1024 .f32) (x1 : FVec Ideal S256x32 .f32) (x2 : FVec Ideal S256x2048 .f32)
  (x3 : FVec Ideal S256x256 .f32) (x4 : FVec Ideal S1024x1024 .bf16) (x5 : FVec Ideal S32x1024 .bf16)
  (x6 : FVec Ideal S2048x1024 .bf16) (x7 : FVec Ideal S1x1024 .f32) (x8 : FVec Ideal S1024x512 .bf16)
  (x9 : FVec Ideal S1x512 .f32) (x10 : FVec Ideal S256x3072 .bf16) (x11 : FVec Ideal S32x3072 .bf16)
  (x12 : FVec Ideal S1024x3072 .bf16) (x13 : FVec Ideal S1x3072 .f32) (x14 : FVec Ideal S1x3072 .f32)

/-- Row p's affine output from the blocks. -/
abbrev outOf (p : Fin 256) : Fin 512 → EReal :=
  affine (hiddenRow (row x0 p) (row x1 p) (row x2 p) (mat x4) (mat x5) (mat x6) (row1 x7)) (mat x8) (row1 x9)

/-- The belief block at (p, q). -/
theorem belief_block (p : Fin 256) (q : Fin 1024) :
    k0_pay7 (F := Ideal) x0 x3 (k0_pay1 (F := Ideal) x0) (k0_pay2 (F := Ideal) x1) (k0_pay4 (F := Ideal) x0 x1 x2 x4 x5 x6 x7 x8 x9) (k0_pay5 (F := Ideal) x0 x1 x2 x4 x5 x6 x7 x8 x9)
        x10 x11 x13 x12 x14 (ix2 p q)
      = belief (gateIn (sample (outOf x0 x1 x2 x4 x5 x6 x7 x8 x9 p) (row x3 p)) (row x1 p) (mat x10) (mat x11) (row1 x13))
          (gateHid (row x0 p) (mat x12) (row1 x14)) (row x0 p) q := by
  rw [pay7_eq, gruVec_apply]
  have hgi : row (giVec (k0_pay6 (F := Ideal) x3 (k0_pay4 (F := Ideal) x0 x1 x2 x4 x5 x6 x7 x8 x9) (k0_pay5 (F := Ideal) x0 x1 x2 x4 x5 x6 x7 x8 x9))
        (k0_pay2 (F := Ideal) x1) x10 x11 x13) p
      = gateIn (sample (outOf x0 x1 x2 x4 x5 x6 x7 x8 x9 p) (row x3 p)) (row x1 p) (mat x10) (mat x11) (row1 x13) :=
    funext fun j => (giVec_apply _ _ x10 x11 x13 p j).trans
      (congrArg (fun r => gateIn r (row x1 p) (mat x10) (mat x11) (row1 x13) j)
        (sample_row x0 x1 x2 x4 x5 x6 x7 x8 x9 x3 p))
  have hgh : row (ghVec (k0_pay1 (F := Ideal) x0) x12 x14) p = gateHid (row x0 p) (mat x12) (row1 x14) :=
    funext fun j => ghVec_apply _ x12 x14 p j
  rw [hgi, hgh]

end Block

end Cert.KernelIdeal.Body

end
-- ==== Proof.HostWindows.lean ====
/-
  The arrays the host prepares before the launch, read at an index.

  Before the kernel is launched the host cuts the first layer's 3104 × 1024 weight matrix into its row blocks
  0–1023, 1024–1055, 1056–3103, transposes the two recurrent weight matrices (cutting the input-side one into its
  row blocks 0–255 and 256–287 after the transpose), rounds each to a narrower float format — the identity at the
  exact values — and views each bias vector as a one-row matrix. So every prepared array, at an index, is an argument
  array at a shifted or swapped index.
-/
import proofs.«105895_j6665789243871_2_alg».proof.Proof.Gen.KernelIdeal.Frame
import proofs.«105895_j6665789243871_2_alg».proof.Proof.Spec
import Idealize.ShloMosaic.Lib.StableHlo.Run
import Idealize.ShloMosaic.Lib.Pipeline.Value
import Idealize.ShloMosaic.Lib.ValueLayout
import Idealize.ShloMosaic.PureOps.Ideal

noncomputable section

namespace Cert.KernelIdeal.Host

open Cert.KernelIdeal Cert.KernelIdeal.Gen Idealize.ShloMosaic Idealize.ShloMosaic.TcCoe Idealize.SL.Sem
open Idealize.ShloMosaic.StableHlo Idealize.ShloMosaic.ValueIdx Cert.Rssm

variable (m : (ℓ : Loc nD τ sig) → Buf (Elt Ideal) ℓ)

/-! ## Each prepared array as the operations' term of the arguments -/

theorem v1_eq (c : Dev nD) : V m c main_call0_v1 =
    truncf (F := Ideal) .bf16 (extractStridedSlice S1024x1024 ![0, 0] (m ((c : Thread nD τ).loc main_arg4)) slices_S3104x1024_S1024x1024_0_0) bitsLt_bf16_f32 := by
  dsimp only [Gen.V, Gen.hostOps0]; after_results; rfl

theorem v3_eq (c : Dev nD) : V m c main_call0_v3 =
    truncf (F := Ideal) .bf16 (extractStridedSlice S32x1024 ![1024, 0] (m ((c : Thread nD τ).loc main_arg4)) slices_S3104x1024_S32x1024_1024_0) bitsLt_bf16_f32 := by
  dsimp only [Gen.V, Gen.hostOps0]; after_results; rfl

theorem v5_eq (c : Dev nD) : V m c main_call0_v5 =
    truncf (F := Ideal) .bf16 (extractStridedSlice S2048x1024 ![1056, 0] (m ((c : Thread nD τ).loc main_arg4)) slices_S3104x1024_S2048x1024_1056_0) bitsLt_bf16_f32 := by
  dsimp only [Gen.V, Gen.hostOps0]; after_results; rfl

theorem v6_eq (c : Dev nD) : V m c main_call0_v6 =
    truncf (F := Ideal) .bf16 (m ((c : Thread nD τ).loc main_arg6)) bitsLt_bf16_f32 := by
  dsimp only [Gen.V, Gen.hostOps0]; after_results; rfl

theorem v9_eq (c : Dev nD) : V m c main_call0_v9 =
    truncf (F := Ideal) .bf16 (extractStridedSlice S256x3072 ![0, 0] (transpose S288x3072 [1, 0] (m ((c : Thread nD τ).loc main_arg8)) transposes_S3072x288_S288x3072_1_0) slices_S288x3072_S256x3072_0_0) bitsLt_bf16_f32 := by
  dsimp only [Gen.V, Gen.hostOps0]; after_results; rfl

theorem v11_eq (c : Dev nD) : V m c main_call0_v11 =
    truncf (F := Ideal) .bf16 (extractStridedSlice S32x3072 ![256, 0] (transpose S288x3072 [1, 0] (m ((c : Thread nD τ).loc main_arg8)) transposes_S3072x288_S288x3072_1_0) slices_S288x3072_S32x3072_256_0) bitsLt_bf16_f32 := by
  dsimp only [Gen.V, Gen.hostOps0]; after_results; rfl

theorem v13_eq (c : Dev nD) : V m c main_call0_v13 =
    truncf (F := Ideal) .bf16 (transpose S1024x3072 [1, 0] (m ((c : Thread nD τ).loc main_arg9)) transposes_S3072x1024_S1024x3072_1_0) bitsLt_bf16_f32 := by
  dsimp only [Gen.V, Gen.hostOps0]; after_results; rfl

theorem v14_eq (c : Dev nD) : V m c main_call0_v14 =
    shapeCast S1x1024 (m ((c : Thread nD τ).loc main_arg5)) shapeCasts_S1024_S1x1024 := by
  dsimp only [Gen.V, Gen.hostOps0]; after_results; rfl

theorem v15_eq (c : Dev nD) : V m c main_call0_v15 =
    shapeCast S1x512 (m ((c : Thread nD τ).loc main_arg7)) shapeCasts_S512_S1x512 := by
  dsimp only [Gen.V, Gen.hostOps0]; after_results; rfl

theorem v16_eq (c : Dev nD) : V m c main_call0_v16 =
    shapeCast S1x3072 (m ((c : Thread nD τ).loc main_arg10)) shapeCasts_S3072_S1x3072 := by
  dsimp only [Gen.V, Gen.hostOps0]; after_results; rfl

theorem v17_eq (c : Dev nD) : V m c main_call0_v17 =
    shapeCast S1x3072 (m ((c : Thread nD τ).loc main_arg11)) shapeCasts_S3072_S1x3072 := by
  dsimp only [Gen.V, Gen.hostOps0]; after_results; rfl

/-! ## Read at an index, in the specification's names -/

/-- Rows 0–1023 of the first layer's weights. -/
theorem v1_at (c : Dev nD) (k : Fin 1024) (q : Fin 1024) :
    V m c main_call0_v1 (ix2 k q) = W1s (m ((c : Thread nD τ).loc main_arg4)) k q := by
  rw [v1_eq]
  exact slice2_axis0_apply 0 (m ((c : Thread nD τ).loc main_arg4)) slices_S3104x1024_S1024x1024_0_0 k q
    ⟨k.val, by have := k.isLt; omega⟩ (by show k.val = 0 + k.val; omega)

/-- Rows 1024–1055. -/
theorem v3_at (c : Dev nD) (k : Fin 32) (q : Fin 1024) :
    V m c main_call0_v3 (ix2 k q) = W1a (m ((c : Thread nD τ).loc main_arg4)) k q := by
  rw [v3_eq]
  exact slice2_axis0_apply 1024 (m ((c : Thread nD τ).loc main_arg4)) slices_S3104x1024_S32x1024_1024_0 k q
    ⟨1024 + k.val, by have := k.isLt; omega⟩ rfl

/-- Rows 1056–3103. -/
theorem v5_at (c : Dev nD) (k : Fin 2048) (q : Fin 1024) :
    V m c main_call0_v5 (ix2 k q) = W1o (m ((c : Thread nD τ).loc main_arg4)) k q := by
  rw [v5_eq]
  exact slice2_axis0_apply 1056 (m ((c : Thread nD τ).loc main_arg4)) slices_S3104x1024_S2048x1024_1056_0 k q
    ⟨1056 + k.val, by have := k.isLt; omega⟩ rfl

/-- The second layer's weights. -/
theorem v6_at (c : Dev nD) (k : Fin 1024) (j : Fin 512) :
    V m c main_call0_v6 (ix2 k j) = mat (m ((c : Thread nD τ).loc main_arg6)) k j := by
  rw [v6_eq]; rfl

/-- Rows 0–255 of the transposed input-gate weights. -/
theorem v9_at (c : Dev nD) (k : Fin 256) (j : Fin 3072) :
    V m c main_call0_v9 (ix2 k j) = Wis (m ((c : Thread nD τ).loc main_arg8)) k j := by
  rw [v9_eq]
  show extractStridedSlice S256x3072 ![0, 0] (transpose S288x3072 [1, 0] (m ((c : Thread nD τ).loc main_arg8)) transposes_S3072x288_S288x3072_1_0) slices_S288x3072_S256x3072_0_0 (ix2 k j) = _
  refine Eq.trans (slice2_axis0_apply 0 (transpose S288x3072 [1, 0] (m ((c : Thread nD τ).loc main_arg8)) transposes_S3072x288_S288x3072_1_0) slices_S288x3072_S256x3072_0_0 k j
    ⟨k.val, by have := k.isLt; omega⟩ (by show k.val = 0 + k.val; omega)) ?_
  exact transpose_ix2_apply (m ((c : Thread nD τ).loc main_arg8)) transposes_S3072x288_S288x3072_1_0 _ j

/-- Rows 256–287 of the transposed input-gate weights. -/
theorem v11_at (c : Dev nD) (k : Fin 32) (j : Fin 3072) :
    V m c main_call0_v11 (ix2 k j) = Wia (m ((c : Thread nD τ).loc main_arg8)) k j := by
  rw [v11_eq]
  show extractStridedSlice S32x3072 ![256, 0] (transpose S288x3072 [1, 0] (m ((c : Thread nD τ).loc main_arg8)) transposes_S3072x288_S288x3072_1_0) slices_S288x3072_S32x3072_256_0 (ix2 k j) = _
  refine Eq.trans (slice2_axis0_apply 256 (transpose S288x3072 [1, 0] (m ((c : Thread nD τ).loc main_arg8)) transposes_S3072x288_S288x3072_1_0) slices_S288x3072_S32x3072_256_0 k j
    ⟨256 + k.val, by have := k.isLt; omega⟩ rfl) ?_
  exact transpose_ix2_apply (m ((c : Thread nD τ).loc main_arg8)) transposes_S3072x288_S288x3072_1_0 _ j

/-- The transposed state-gate weights. -/
theorem v13_at (c : Dev nD) (k : Fin 1024) (j : Fin 3072) :
    V m c main_call0_v13 (ix2 k j) = WhhT (m ((c : Thread nD τ).loc main_arg9)) k j := by
  rw [v13_eq]
  exact transpose_ix2_apply (m ((c : Thread nD τ).loc main_arg9)) transposes_S3072x1024_S1024x3072_1_0 k j

/-- The four bias vectors as one-row matrices. -/
theorem v14_at (c : Dev nD) (q : Fin 1024) :
    V m c main_call0_v14 (ix2 (0 : Fin 1) q) = vec (m ((c : Thread nD τ).loc main_arg5)) q := by
  rw [v14_eq]
  exact shapeCast_a_1a_apply (m ((c : Thread nD τ).loc main_arg5)) shapeCasts_S1024_S1x1024 0 q

theorem v15_at (c : Dev nD) (j : Fin 512) :
    V m c main_call0_v15 (ix2 (0 : Fin 1) j) = vec (m ((c : Thread nD τ).loc main_arg7)) j := by
  rw [v15_eq]
  exact shapeCast_a_1a_apply (m ((c : Thread nD τ).loc main_arg7)) shapeCasts_S512_S1x512 0 j

theorem v16_at (c : Dev nD) (j : Fin 3072) :
    V m c main_call0_v16 (ix2 (0 : Fin 1) j) = vec (m ((c : Thread nD τ).loc main_arg10)) j := by
  rw [v16_eq]
  exact shapeCast_a_1a_apply (m ((c : Thread nD τ).loc main_arg10)) shapeCasts_S3072_S1x3072 0 j

theorem v17_at (c : Dev nD) (j : Fin 3072) :
    V m c main_call0_v17 (ix2 (0 : Fin 1) j) = vec (m ((c : Thread nD τ).loc main_arg11)) j := by
  rw [v17_eq]
  exact shapeCast_a_1a_apply (m ((c : Thread nD τ).loc main_arg11)) shapeCasts_S3072_S1x3072 0 j

end Cert.KernelIdeal.Host

end
-- ==== Proof.Blocks.lean ====
/-
  From the blocks each grid point writes back to the four result arrays.

  The grid has 32 points; point t stages rows 256 t … 256 t + 255 of the four activation arrays and the whole of each
  prepared weight array, and writes back rows 256 t … 256 t + 255 of each result. A result block's entry (p, ·) is the
  specification's row function of row p of the staged activation blocks, that is of row 256 t + p of the arguments,
  and of the weights; so what point t writes back is block t of the specification's array, and since the 32 row
  blocks cover the 8192 rows each result array ends holding the specification's array.
-/
import proofs.«105895_j6665789243871_2_alg».proof.Proof.Gen.KernelIdeal.Value
import proofs.«105895_j6665789243871_2_alg».proof.Proof.KernelBody
import proofs.«105895_j6665789243871_2_alg».proof.Proof.HostWindows

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.Rssm
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- Where each window's block sits at grid point `t`: the activation and result windows at row block `t`, the
    weight windows at their one block. Decided over the 32 points. -/
theorem idx_facts : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0
    ∧ win0_15.index t (0 : Fin 2) = t.val
    ∧ win0_15.index t (1 : Fin 2) = 0
    ∧ win0_16.index t (0 : Fin 2) = t.val
    ∧ win0_16.index t (1 : Fin 2) = 0
    ∧ win0_17.index t (0 : Fin 2) = t.val
    ∧ win0_17.index t (1 : Fin 2) = 0
    ∧ win0_18.index t (0 : Fin 2) = t.val
    ∧ win0_18.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 2) = 0
    ∧ win0_12.index t (1 : Fin 2) = 0
    ∧ win0_13.index t (0 : Fin 2) = 0
    ∧ win0_13.index t (1 : Fin 2) = 0
    ∧ win0_14.index t (0 : Fin 2) = 0
    ∧ win0_14.index t (1 : Fin 2) = 0 :=
  (by decide +kernel : ∀ t : Fin grid0.N, _)

theorem t_lt (t : Fin cfg0.N) : t.val < 32 := lt_of_lt_of_eq t.isLt N_0

/-- Batch row 256 t + p. -/
def brow (t : Fin cfg0.N) (p : Fin 256) : Fin 8192 := ⟨256 * t.val + p.val, by have := t_lt t; have := p.isLt; omega⟩

/-! ## The staged blocks as rows and matrices of the arguments -/

/-- Window 0's block at point `t` holds rows 256 t … 256 t + 255 of its argument. -/
theorem rows0 (c : Dev nD) (t : Fin cfg0.N) (p : Fin 256) :
    row (iblk m c 0 t) p = row (m ((c : Thread nD τ).loc main_arg0)) (brow t p) := by
  funext k
  show iblk m c 0 t (ix2 p k) = m ((c : Thread nD τ).loc main_arg0) (ix2 (brow t p) k)
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 2) * 256 + 1 * p.val = 256 * t.val + p.val; rw [(idx_facts t).1]; omega
  | ⟨1, _⟩ => show win0_0.index t (1 : Fin 2) * 1024 + 1 * k.val = k.val; rw [(idx_facts t).2.1]; omega

/-- Window 1's block at point `t` holds rows 256 t … 256 t + 255 of its argument. -/
theorem rows1 (c : Dev nD) (t : Fin cfg0.N) (p : Fin 256) :
    row (iblk m c 1 t) p = row (m ((c : Thread nD τ).loc main_arg1)) (brow t p) := by
  funext k
  show iblk m c 1 t (ix2 p k) = m ((c : Thread nD τ).loc main_arg1) (ix2 (brow t p) k)
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t (0 : Fin 2) * 256 + 1 * p.val = 256 * t.val + p.val; rw [(idx_facts t).2.2.1]; omega
  | ⟨1, _⟩ => show win0_1.index t (1 : Fin 2) * 32 + 1 * k.val = k.val; rw [(idx_facts t).2.2.2.1]; omega

/-- Window 2's block at point `t` holds rows 256 t … 256 t + 255 of its argument. -/
theorem rows2 (c : Dev nD) (t : Fin cfg0.N) (p : Fin 256) :
    row (iblk m c 2 t) p = row (m ((c : Thread nD τ).loc main_arg2)) (brow t p) := by
  funext k
  show iblk m c 2 t (ix2 p k) = m ((c : Thread nD τ).loc main_arg2) (ix2 (brow t p) k)
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t (0 : Fin 2) * 256 + 1 * p.val = 256 * t.val + p.val; rw [(idx_facts t).2.2.2.2.1]; omega
  | ⟨1, _⟩ => show win0_2.index t (1 : Fin 2) * 2048 + 1 * k.val = k.val; rw [(idx_facts t).2.2.2.2.2.1]; omega

/-- Window 3's block at point `t` holds rows 256 t … 256 t + 255 of its argument. -/
theorem rows3 (c : Dev nD) (t : Fin cfg0.N) (p : Fin 256) :
    row (iblk m c 3 t) p = row (m ((c : Thread nD τ).loc main_arg3)) (brow t p) := by
  funext k
  show iblk m c 3 t (ix2 p k) = m ((c : Thread nD τ).loc main_arg3) (ix2 (brow t p) k)
  unfold iblk
  rw [View.read_apply]
  show V m c main_arg3 _ = _
  rw [V_main_arg3]
  refine congrArg (m ((c : Thread nD τ).loc main_arg3)) (funext fun a => Fin.ext ?_)
  match a with
  | ⟨0, _⟩ => show win0_3.index t (0 : Fin 2) * 256 + 1 * p.val = 256 * t.val + p.val; rw [(idx_facts t).2.2.2.2.2.2.1]; omega
  | ⟨1, _⟩ => show win0_3.index t (1 : Fin 2) * 256 + 1 * k.val = k.val; rw [(idx_facts t).2.2.2.2.2.2.2.1]; omega

/-- Window 4's one block is the whole prepared array. -/
theorem mat4 (c : Dev nD) (t : Fin cfg0.N) : mat (iblk m c 4 t) = W1s (m ((c : Thread nD τ).loc main_arg4)) := by
  funext k q
  show iblk m c 4 t (ix2 k q) = _
  unfold iblk
  rw [View.read_apply]
  show V m c main_call0_v1 _ = _
  refine Eq.trans (congrArg (V m c main_call0_v1) (funext fun a => Fin.ext ?_)) (Host.v1_at m c k q)
  match a with
  | ⟨0, _⟩ => show win0_4.index t (0 : Fin 2) * 1024 + 1 * k.val = k.val; rw [(idx_facts t).2.2.2.2.2.2.2.2.2.2.2.2.2.2.2.2.1]; omega
  | ⟨1, _⟩ => show win0_4.index t (1 : Fin 2) * 1024 + 1 * q.val = q.val; rw [(idx_facts t).2.2.2.2.2.2.2.2.2.2.2.2.2.2.2.2.2.1]; omega

/-- Window 5's one block is the whole prepared array. -/
theorem mat5 (c : Dev nD) (t : Fin cfg0.N) : mat (iblk m c 5 t) = W1a (m ((c : Thread nD τ).loc main_arg4)) := by
  funext k q
  show iblk m c 5 t (ix2 k q) = _
  unfold iblk
  rw [View.read_apply]
  show V m c main_call0_v3 _ = _
  refine Eq.trans (congrArg (V m c main_call0_v3) (funext fun a => Fin.ext ?_)) (Host.v3_at m c k q)
  match a with
  | ⟨0, _⟩ => show win0_5.index t (0 : Fin 2) * 32 + 1 * k.val = k.val; rw [(idx_facts t).2.2.2.2.2.2.2.2.2.2.2.2.2.2.2.2.2.2.1]; omega
  | ⟨1, _⟩ => show win0_5.index t (1 : Fin 2) * 1024 + 1 * q.val = q.val; rw [(idx_facts t).2.2.2.2.2.2.2.2.2.2.2.2.2.2.2.2.2.2.2.1]; omega

/-- Window 6's one block is the whole prepared array. -/
theorem mat6 (c : Dev nD) (t : Fin cfg0.N) : mat (iblk m c 6 t) = W1o (m ((c : Thread nD τ).loc main_arg4)) := by
  funext k q
  show iblk m c 6 t (ix2 k q) = _
  unfold iblk
  rw [View.read_apply]
  show V m c main_call0_v5 _ = _
  refine Eq.trans (congrArg (V m c main_call0_v5) (funext fun a => Fin.ext ?_)) (Host.v5_at m c k q)
  match a with
  | ⟨0, _⟩ => show win0_6.index t (0 : Fin 2) * 2048 + 1 * k.val = k.val; rw [(idx_facts t).2.2.2.2.2.2.2.2.2.2.2.2.2.2.2.2.2.2.2.2.1]; omega
  | ⟨1, _⟩ => show win0_6.index t (1 : Fin 2) * 1024 + 1 * q.val = q.val; rw [(idx_facts t).2.2.2.2.2.2.2.2.2.2.2.2.2.2.2.2.2.2.2.2.2.1]; omega

/-- Window 8's one block is the whole prepared array. -/
theorem mat8 (c : Dev nD) (t : Fin cfg0.N) : mat (iblk m c 8 t) = mat (m ((c : Thread nD τ).loc main_arg6)) := by
  funext k q
  show iblk m c 8 t (ix2 k q) = _
  unfold iblk
  rw [View.read_apply]
  show V m c main_call0_v6 _ = _
  refine Eq.trans (congrArg (V m c main_call0_v6) (funext fun a => Fin.ext ?_)) (Host.v6_at m c k q)
  match a with
  | ⟨0, _⟩ => show win0_8.index t (0 : Fin 2) * 1024 + 1 * k.val = k.val; rw [(idx_facts t).2.2.2.2.2.2.2.2.2.2.2.2.2.2.2.2.2.2.2.2.2.2.2.2.1]; omega
  | ⟨1, _⟩ => show win0_8.index t (1 : Fin 2) * 512 + 1 * q.val = q.val; rw [(idx_facts t).2.2.2.2.2.2.2.2.2.2.2.2.2.2.2.2.2.2.2.2.2.2.2.2.2.1]; omega

/-- Window 10's one block is the whole prepared array. -/
theorem mat10 (c : Dev nD) (t : Fin cfg0.N) : mat (iblk m c 10 t) = Wis (m ((c : Thread nD τ).loc main_arg8)) := by
  funext k q
  show iblk m c 10 t (ix2 k q) = _
  unfold iblk
  rw [View.read_apply]
  show V m c main_call0_v9 _ = _
  refine Eq.trans (congrArg (V m c main_call0_v9) (funext fun a => Fin.ext ?_)) (Host.v9_at m c k q)
  match a with
  | ⟨0, _⟩ => show win0_10.index t (0 : Fin 2) * 256 + 1 * k.val = k.val; rw [(idx_facts t).2.2.2.2.2.2.2.2.2.2.2.2.2.2.2.2.2.2.2.2.2.2.2.2.2.2.2.2.1]; omega
  | ⟨1, _⟩ => show win0_10.index t (1 : Fin 2) * 3072 + 1 * q.val = q.val; rw [(idx_facts t).2.2.2.2.2.2.2.2.2.2.2.2.2.2.2.2.2.2.2.2.2.2.2.2.2.2.2.2.2.1]; omega

/-- Window 11's one block is the whole prepared array. -/
theorem mat11 (c : Dev nD) (t : Fin cfg0.N) : mat (iblk m c 11 t) = Wia (m ((c : Thread nD τ).loc main_arg8)) := by
  funext k q
  show iblk m c 11 t (ix2 k q) = _
  unfold iblk
  rw [View.read_apply]
  show V m c main_call0_v11 _ = _
  refine Eq.trans (congrArg (V m c main_call0_v11) (funext fun a => Fin.ext ?_)) (Host.v11_at m c k q)
  match a with
  | ⟨0, _⟩ => show win0_11.index t (0 : Fin 2) * 32 + 1 * k.val = k.val; rw [(idx_facts t).2.2.2.2.2.2.2.2.2.2.2.2.2.2.2.2.2.2.2.2.2.2.2.2.2.2.2.2.2.2.1]; omega
  | ⟨1, _⟩ => show win0_11.index t (1 : Fin 2) * 3072 + 1 * q.val = q.val; rw [(idx_facts t).2.2.2.2.2.2.2.2.2.2.2.2.2.2.2.2.2.2.2.2.2.2.2.2.2.2.2.2.2.2.2.1]; omega

/-- Window 12's one block is the whole prepared array. -/
theorem mat12 (c : Dev nD) (t : Fin cfg0.N) : mat (iblk m c 12 t) = WhhT (m ((c : Thread nD τ).loc main_arg9)) := by
  funext k q
  show iblk m c 12 t (ix2 k q) = _
  unfold iblk
  rw [View.read_apply]
  show V m c main_call0_v13 _ = _
  refine Eq.trans (congrArg (V m c main_call0_v13) (funext fun a => Fin.ext ?_)) (Host.v13_at m c k q)
  match a with
  | ⟨0, _⟩ => show win0_12.index t (0 : Fin 2) * 1024 + 1 * k.val = k.val; rw [(idx_facts t).2.2.2.2.2.2.2.2.2.2.2.2.2.2.2.2.2.2.2.2.2.2.2.2.2.2.2.2.2.2.2.2.1]; omega
  | ⟨1, _⟩ => show win0_12.index t (1 : Fin 2) * 3072 + 1 * q.val = q.val; rw [(idx_facts t).2.2.2.2.2.2.2.2.2.2.2.2.2.2.2.2.2.2.2.2.2.2.2.2.2.2.2.2.2.2.2.2.2.1]; omega

/-- Window 7's one block is the bias vector as a one-row matrix. -/
theorem bias7 (c : Dev nD) (t : Fin cfg0.N) : Body.row1 (iblk m c 7 t) = vec (m ((c : Thread nD τ).loc main_arg5)) := by
  funext q
  show iblk m c 7 t (ix2 (0 : Fin 1) q) = _
  unfold iblk
  rw [View.read_apply]
  show V m c main_call0_v14 _ = _
  refine Eq.trans (congrArg (V m c main_call0_v14) (funext fun a => Fin.ext ?_)) (Host.v14_at m c q)
  match a with
  | ⟨0, _⟩ => show win0_7.index t (0 : Fin 2) * 1 + 1 * 0 = 0; rw [(idx_facts t).2.2.2.2.2.2.2.2.2.2.2.2.2.2.2.2.2.2.2.2.2.2.1]
  | ⟨1, _⟩ => show win0_7.index t (1 : Fin 2) * 1024 + 1 * q.val = q.val; rw [(idx_facts t).2.2.2.2.2.2.2.2.2.2.2.2.2.2.2.2.2.2.2.2.2.2.2.1]; omega

/-- Window 9's one block is the bias vector as a one-row matrix. -/
theorem bias9 (c : Dev nD) (t : Fin cfg0.N) : Body.row1 (iblk m c 9 t) = vec (m ((c : Thread nD τ).loc main_arg7)) := by
  funext q
  show iblk m c 9 t (ix2 (0 : Fin 1) q) = _
  unfold iblk
  rw [View.read_apply]
  show V m c main_call0_v15 _ = _
  refine Eq.trans (congrArg (V m c main_call0_v15) (funext fun a => Fin.ext ?_)) (Host.v15_at m c q)
  match a with
  | ⟨0, _⟩ => show win0_9.index t (0 : Fin 2) * 1 + 1 * 0 = 0; rw [(idx_facts t).2.2.2.2.2.2.2.2.2.2.2.2.2.2.2.2.2.2.2.2.2.2.2.2.2.2.1]
  | ⟨1, _⟩ => show win0_9.index t (1 : Fin 2) * 512 + 1 * q.val = q.val; rw [(idx_facts t).2.2.2.2.2.2.2.2.2.2.2.2.2.2.2.2.2.2.2.2.2.2.2.2.2.2.2.1]; omega

/-- Window 13's one block is the bias vector as a one-row matrix. -/
theorem bias13 (c : Dev nD) (t : Fin cfg0.N) : Body.row1 (iblk m c 13 t) = vec (m ((c : Thread nD τ).loc main_arg10)) := by
  funext q
  show iblk m c 13 t (ix2 (0 : Fin 1) q) = _
  unfold iblk
  rw [View.read_apply]
  show V m c main_call0_v16 _ = _
  refine Eq.trans (congrArg (V m c main_call0_v16) (funext fun a => Fin.ext ?_)) (Host.v16_at m c q)
  match a with
  | ⟨0, _⟩ => show win0_13.index t (0 : Fin 2) * 1 + 1 * 0 = 0; rw [(idx_facts t).2.2.2.2.2.2.2.2.2.2.2.2.2.2.2.2.2.2.2.2.2.2.2.2.2.2.2.2.2.2.2.2.2.2.1]
  | ⟨1, _⟩ => show win0_13.index t (1 : Fin 2) * 3072 + 1 * q.val = q.val; rw [(idx_facts t).2.2.2.2.2.2.2.2.2.2.2.2.2.2.2.2.2.2.2.2.2.2.2.2.2.2.2.2.2.2.2.2.2.2.2.1]; omega

/-- Window 14's one block is the bias vector as a one-row matrix. -/
theorem bias14 (c : Dev nD) (t : Fin cfg0.N) : Body.row1 (iblk m c 14 t) = vec (m ((c : Thread nD τ).loc main_arg11)) := by
  funext q
  show iblk m c 14 t (ix2 (0 : Fin 1) q) = _
  unfold iblk
  rw [View.read_apply]
  show V m c main_call0_v17 _ = _
  refine Eq.trans (congrArg (V m c main_call0_v17) (funext fun a => Fin.ext ?_)) (Host.v17_at m c q)
  match a with
  | ⟨0, _⟩ => show win0_14.index t (0 : Fin 2) * 1 + 1 * 0 = 0; rw [(idx_facts t).2.2.2.2.2.2.2.2.2.2.2.2.2.2.2.2.2.2.2.2.2.2.2.2.2.2.2.2.2.2.2.2.2.2.2.2.1]
  | ⟨1, _⟩ => show win0_14.index t (1 : Fin 2) * 3072 + 1 * q.val = q.val; rw [(idx_facts t).2.2.2.2.2.2.2.2.2.2.2.2.2.2.2.2.2.2.2.2.2.2.2.2.2.2.2.2.2.2.2.2.2.2.2.2.2]; omega

/-- Row p of point t's affine output is the specification's row 256 t + p. -/
theorem out_row (c : Dev nD) (t : Fin cfg0.N) (p : Fin 256) :
    Body.outOf (iblk m c 0 t) (iblk m c 1 t) (iblk m c 2 t) (iblk m c 4 t) (iblk m c 5 t) (iblk m c 6 t) (iblk m c 7 t) (iblk m c 8 t) (iblk m c 9 t) p
      = outRow (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (brow t p) := by
  unfold Body.outOf outRow
  rw [rows0, rows1, rows2, mat4, mat5, mat6, bias7, mat8, bias9]

/-! ## Output window 15: the mean -/

/-- An index of the array is in point `t`'s block iff each coordinate is in the block's range on its axis. -/
theorem mem_blk15 (t : Fin cfg0.N) (i : S8192x256.Idx) :
    i ∈ ((cfg0.win 15).blk t).view.set ↔ ∀ a : Fin 2, win0_15.index t a * S256x256.size a ≤ (i a).val ∧ (i a).val < win0_15.index t a * S256x256.size a + S256x256.size a := by
  show i ∈ ((View.whole main_v0_0).slice (win0_15.rect t)).set ↔ _
  rw [View.set_slice_whole, Rect.mem_set_unit]
  exact Iff.rfl

theorem emb15 (t : Fin cfg0.N) (p : Fin 256) (j : Fin 256) :
    ((cfg0.win 15).blk t).view.emb (ix2 p j) = ix2 (brow t p) j := by
  funext a; apply Fin.ext
  match a with
  | ⟨0, _⟩ => show win0_15.index t (0 : Fin 2) * 256 + 1 * p.val = 256 * t.val + p.val; rw [(idx_facts t).2.2.2.2.2.2.2.2.1]; omega
  | ⟨1, _⟩ => show win0_15.index t (1 : Fin 2) * 256 + 1 * j.val = j.val; rw [(idx_facts t).2.2.2.2.2.2.2.2.2.1]; omega

/-- What point `t` writes back is block `t` of the mean array. -/
theorem flushed15_eq (c : Dev nD) (t : Fin cfg0.N) :
    (dats m 0 c).flushed 15 t = ((cfg0.win 15).blk t).view.read (Elt Ideal) (meanG (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) := by
  rw [Value.flushed15]
  unfold out0_15
  rw [View.canon_unit_zero hz]
  simp only [View.ld_unit_zero (S := S256x1024) hz, View.ld_unit_zero (S := S256x32) hz, View.ld_unit_zero (S := S256x2048) hz, View.ld_unit_zero (S := S256x256) hz, View.ld_unit_zero (S := S1024x1024) hz, View.ld_unit_zero (S := S32x1024) hz, View.ld_unit_zero (S := S2048x1024) hz, View.ld_unit_zero (S := S1x1024) hz, View.ld_unit_zero (S := S1024x512) hz, View.ld_unit_zero (S := S1x512) hz, View.ld_unit_zero (S := S256x3072) hz, View.ld_unit_zero (S := S32x3072) hz, View.ld_unit_zero (S := S1x3072) hz, View.ld_unit_zero (S := S1024x3072) hz]
  funext y
  obtain ⟨p, j, rfl⟩ : ∃ (p : Fin 256) (j : Fin 256), y = ix2 p j := ⟨y 0, y 1, eq_ix2 y⟩
  show k0_pay4 (F := Ideal) (iblk m c 0 t) (iblk m c 1 t) (iblk m c 2 t) (iblk m c 4 t) (iblk m c 5 t) (iblk m c 6 t) (iblk m c 7 t) (iblk m c 8 t) (iblk m c 9 t) (ix2 p j) = meanG (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (((cfg0.win 15).blk t).view.emb (ix2 p j))
  rw [emb15, Body.pay4_apply]
  show Body.outOf (iblk m c 0 t) (iblk m c 1 t) (iblk m c 2 t) (iblk m c 4 t) (iblk m c 5 t) (iblk m c 6 t) (iblk m c 7 t) (iblk m c 8 t) (iblk m c 9 t) p (lo j) = outRow (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (brow t p) (lo j)
  rw [out_row]

theorem cover15 (i : S8192x256.Idx) :
    ∃ t : Fin cfg0.N, (cfg0.win 15).flush t = true ∧ i ∈ ((cfg0.win 15).blk t).view.set := by
  have hi0 : (i 0).val < 8192 := (i 0).isLt
  have hi1 : (i 1).val < 256 := (i 1).isLt
  have hN : (i 0).val / 256 < cfg0.N := lt_of_lt_of_eq (by omega : (i 0).val / 256 < 32) N_0.symm
  refine ⟨⟨(i 0).val / 256, hN⟩, flush0_15 _, ?_⟩
  rw [mem_blk15]
  have f0 := (idx_facts ⟨(i 0).val / 256, hN⟩).2.2.2.2.2.2.2.2.1
  have f1 := (idx_facts ⟨(i 0).val / 256, hN⟩).2.2.2.2.2.2.2.2.2.1
  intro a
  match a with
  | ⟨0, _⟩ => show win0_15.index ⟨(i 0).val / 256, hN⟩ (0 : Fin 2) * 256 ≤ (i 0).val ∧ (i 0).val < win0_15.index ⟨(i 0).val / 256, hN⟩ (0 : Fin 2) * 256 + 256; rw [f0]; show (i 0).val / 256 * 256 ≤ (i 0).val ∧ (i 0).val < (i 0).val / 256 * 256 + 256; omega
  | ⟨1, _⟩ => show win0_15.index ⟨(i 0).val / 256, hN⟩ (1 : Fin 2) * 256 ≤ (i 1).val ∧ (i 1).val < win0_15.index ⟨(i 0).val / 256, hN⟩ (1 : Fin 2) * 256 + 256; rw [f1]; omega

/-- The mean array after the run. -/
theorem final15 (c : Dev nD) : (dats m 0 c).arrAt 15 cfg0.N = meanG (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) :=
  (dats m 0 c).arrAt_eq_of_cover 15 (meanG (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) (fun t _ => flushed15_eq m c t) cover15

/-! ## Output window 16: the variance -/

theorem mem_blk16 (t : Fin cfg0.N) (i : S8192x256.Idx) :
    i ∈ ((cfg0.win 16).blk t).view.set ↔ ∀ a : Fin 2, win0_16.index t a * S256x256.size a ≤ (i a).val ∧ (i a).val < win0_16.index t a * S256x256.size a + S256x256.size a := by
  show i ∈ ((View.whole main_v0_1).slice (win0_16.rect t)).set ↔ _
  rw [View.set_slice_whole, Rect.mem_set_unit]
  exact Iff.rfl

theorem emb16 (t : Fin cfg0.N) (p : Fin 256) (j : Fin 256) :
    ((cfg0.win 16).blk t).view.emb (ix2 p j) = ix2 (brow t p) j := by
  funext a; apply Fin.ext
  match a with
  | ⟨0, _⟩ => show win0_16.index t (0 : Fin 2) * 256 + 1 * p.val = 256 * t.val + p.val; rw [(idx_facts t).2.2.2.2.2.2.2.2.2.2.1]; omega
  | ⟨1, _⟩ => show win0_16.index t (1 : Fin 2) * 256 + 1 * j.val = j.val; rw [(idx_facts t).2.2.2.2.2.2.2.2.2.2.2.1]; omega

theorem cover16 (i : S8192x256.Idx) :
    ∃ t : Fin cfg0.N, (cfg0.win 16).flush t = true ∧ i ∈ ((cfg0.win 16).blk t).view.set := by
  have hi0 : (i 0).val < 8192 := (i 0).isLt
  have hi1 : (i 1).val < 256 := (i 1).isLt
  have hN : (i 0).val / 256 < cfg0.N := lt_of_lt_of_eq (by omega : (i 0).val / 256 < 32) N_0.symm
  refine ⟨⟨(i 0).val / 256, hN⟩, flush0_16 _, ?_⟩
  rw [mem_blk16]
  have f0 := (idx_facts ⟨(i 0).val / 256, hN⟩).2.2.2.2.2.2.2.2.2.2.1
  have f1 := (idx_facts ⟨(i 0).val / 256, hN⟩).2.2.2.2.2.2.2.2.2.2.2.1
  intro a
  match a with
  | ⟨0, _⟩ => show win0_16.index ⟨(i 0).val / 256, hN⟩ (0 : Fin 2) * 256 ≤ (i 0).val ∧ (i 0).val < win0_16.index ⟨(i 0).val / 256, hN⟩ (0 : Fin 2) * 256 + 256; rw [f0]; show (i 0).val / 256 * 256 ≤ (i 0).val ∧ (i 0).val < (i 0).val / 256 * 256 + 256; omega
  | ⟨1, _⟩ => show win0_16.index ⟨(i 0).val / 256, hN⟩ (1 : Fin 2) * 256 ≤ (i 1).val ∧ (i 1).val < win0_16.index ⟨(i 0).val / 256, hN⟩ (1 : Fin 2) * 256 + 256; rw [f1]; omega

/-- What point `t` writes back is block `t` of the variance array. -/
theorem flushed16_eq (c : Dev nD) (t : Fin cfg0.N) :
    (dats m 0 c).flushed 16 t = ((cfg0.win 16).blk t).view.read (Elt Ideal) (varG (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) := by
  rw [Value.flushed16]
  unfold out0_16
  rw [View.canon_unit_zero hz]
  simp only [View.ld_unit_zero (S := S256x1024) hz, View.ld_unit_zero (S := S256x32) hz, View.ld_unit_zero (S := S256x2048) hz, View.ld_unit_zero (S := S256x256) hz, View.ld_unit_zero (S := S1024x1024) hz, View.ld_unit_zero (S := S32x1024) hz, View.ld_unit_zero (S := S2048x1024) hz, View.ld_unit_zero (S := S1x1024) hz, View.ld_unit_zero (S := S1024x512) hz, View.ld_unit_zero (S := S1x512) hz, View.ld_unit_zero (S := S256x3072) hz, View.ld_unit_zero (S := S32x3072) hz, View.ld_unit_zero (S := S1x3072) hz, View.ld_unit_zero (S := S1024x3072) hz]
  funext y
  obtain ⟨p, j, rfl⟩ : ∃ (p : Fin 256) (j : Fin 256), y = ix2 p j := ⟨y 0, y 1, eq_ix2 y⟩
  show k0_pay5 (F := Ideal) (iblk m c 0 t) (iblk m c 1 t) (iblk m c 2 t) (iblk m c 4 t) (iblk m c 5 t) (iblk m c 6 t) (iblk m c 7 t) (iblk m c 8 t) (iblk m c 9 t) (ix2 p j) = varG (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (((cfg0.win 16).blk t).view.emb (ix2 p j))
  rw [emb16, Body.pay5_apply]
  show Body.outOf (iblk m c 0 t) (iblk m c 1 t) (iblk m c 2 t) (iblk m c 4 t) (iblk m c 5 t) (iblk m c 6 t) (iblk m c 7 t) (iblk m c 8 t) (iblk m c 9 t) p (hi j) = outRow (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (brow t p) (hi j)
  rw [out_row]

/-- The variance array after the run. -/
theorem final16 (c : Dev nD) : (dats m 0 c).arrAt 16 cfg0.N = varG (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) :=
  (dats m 0 c).arrAt_eq_of_cover 16 (varG (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) (fun t _ => flushed16_eq m c t) cover16

/-! ## Output window 17: the sample -/

theorem mem_blk17 (t : Fin cfg0.N) (i : S8192x256.Idx) :
    i ∈ ((cfg0.win 17).blk t).view.set ↔ ∀ a : Fin 2, win0_17.index t a * S256x256.size a ≤ (i a).val ∧ (i a).val < win0_17.index t a * S256x256.size a + S256x256.size a := by
  show i ∈ ((View.whole main_v0_2).slice (win0_17.rect t)).set ↔ _
  rw [View.set_slice_whole, Rect.mem_set_unit]
  exact Iff.rfl

theorem emb17 (t : Fin cfg0.N) (p : Fin 256) (j : Fin 256) :
    ((cfg0.win 17).blk t).view.emb (ix2 p j) = ix2 (brow t p) j := by
  funext a; apply Fin.ext
  match a with
  | ⟨0, _⟩ => show win0_17.index t (0 : Fin 2) * 256 + 1 * p.val = 256 * t.val + p.val; rw [(idx_facts t).2.2.2.2.2.2.2.2.2.2.2.2.1]; omega
  | ⟨1, _⟩ => show win0_17.index t (1 : Fin 2) * 256 + 1 * j.val = j.val; rw [(idx_facts t).2.2.2.2.2.2.2.2.2.2.2.2.2.1]; omega

theorem cover17 (i : S8192x256.Idx) :
    ∃ t : Fin cfg0.N, (cfg0.win 17).flush t = true ∧ i ∈ ((cfg0.win 17).blk t).view.set := by
  have hi0 : (i 0).val < 8192 := (i 0).isLt
  have hi1 : (i 1).val < 256 := (i 1).isLt
  have hN : (i 0).val / 256 < cfg0.N := lt_of_lt_of_eq (by omega : (i 0).val / 256 < 32) N_0.symm
  refine ⟨⟨(i 0).val / 256, hN⟩, flush0_17 _, ?_⟩
  rw [mem_blk17]
  have f0 := (idx_facts ⟨(i 0).val / 256, hN⟩).2.2.2.2.2.2.2.2.2.2.2.2.1
  have f1 := (idx_facts ⟨(i 0).val / 256, hN⟩).2.2.2.2.2.2.2.2.2.2.2.2.2.1
  intro a
  match a with
  | ⟨0, _⟩ => show win0_17.index ⟨(i 0).val / 256, hN⟩ (0 : Fin 2) * 256 ≤ (i 0).val ∧ (i 0).val < win0_17.index ⟨(i 0).val / 256, hN⟩ (0 : Fin 2) * 256 + 256; rw [f0]; show (i 0).val / 256 * 256 ≤ (i 0).val ∧ (i 0).val < (i 0).val / 256 * 256 + 256; omega
  | ⟨1, _⟩ => show win0_17.index ⟨(i 0).val / 256, hN⟩ (1 : Fin 2) * 256 ≤ (i 1).val ∧ (i 1).val < win0_17.index ⟨(i 0).val / 256, hN⟩ (1 : Fin 2) * 256 + 256; rw [f1]; omega

/-- What point `t` writes back is block `t` of the sample array. -/
theorem flushed17_eq (c : Dev nD) (t : Fin cfg0.N) :
    (dats m 0 c).flushed 17 t = ((cfg0.win 17).blk t).view.read (Elt Ideal) (sampleG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  rw [Value.flushed17]
  unfold out0_17
  rw [View.canon_unit_zero hz]
  simp only [View.ld_unit_zero (S := S256x1024) hz, View.ld_unit_zero (S := S256x32) hz, View.ld_unit_zero (S := S256x2048) hz, View.ld_unit_zero (S := S256x256) hz, View.ld_unit_zero (S := S1024x1024) hz, View.ld_unit_zero (S := S32x1024) hz, View.ld_unit_zero (S := S2048x1024) hz, View.ld_unit_zero (S := S1x1024) hz, View.ld_unit_zero (S := S1024x512) hz, View.ld_unit_zero (S := S1x512) hz, View.ld_unit_zero (S := S256x3072) hz, View.ld_unit_zero (S := S32x3072) hz, View.ld_unit_zero (S := S1x3072) hz, View.ld_unit_zero (S := S1024x3072) hz]
  funext y
  obtain ⟨p, j, rfl⟩ : ∃ (p : Fin 256) (j : Fin 256), y = ix2 p j := ⟨y 0, y 1, eq_ix2 y⟩
  show row (k0_pay6 (F := Ideal) (iblk m c 3 t) (k0_pay4 (F := Ideal) (iblk m c 0 t) (iblk m c 1 t) (iblk m c 2 t) (iblk m c 4 t) (iblk m c 5 t) (iblk m c 6 t) (iblk m c 7 t) (iblk m c 8 t) (iblk m c 9 t)) (k0_pay5 (F := Ideal) (iblk m c 0 t) (iblk m c 1 t) (iblk m c 2 t) (iblk m c 4 t) (iblk m c 5 t) (iblk m c 6 t) (iblk m c 7 t) (iblk m c 8 t) (iblk m c 9 t))) p j
    = sampleG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((cfg0.win 17).blk t).view.emb (ix2 p j))
  rw [emb17, Body.sample_row]
  show sample (Body.outOf (iblk m c 0 t) (iblk m c 1 t) (iblk m c 2 t) (iblk m c 4 t) (iblk m c 5 t) (iblk m c 6 t) (iblk m c 7 t) (iblk m c 8 t) (iblk m c 9 t) p) (row (iblk m c 3 t) p) j
    = sample (outRow (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (brow t p)) (row (m ((c : Thread nD τ).loc main_arg3)) (brow t p)) j
  rw [out_row, rows3]

/-- The sample array after the run. -/
theorem final17 (c : Dev nD) : (dats m 0 c).arrAt 17 cfg0.N = sampleG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dats m 0 c).arrAt_eq_of_cover 17 (sampleG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (fun t _ => flushed17_eq m c t) cover17

/-! ## Output window 18: the belief -/

theorem mem_blk18 (t : Fin cfg0.N) (i : S8192x1024.Idx) :
    i ∈ ((cfg0.win 18).blk t).view.set ↔ ∀ a : Fin 2, win0_18.index t a * S256x1024.size a ≤ (i a).val ∧ (i a).val < win0_18.index t a * S256x1024.size a + S256x1024.size a := by
  show i ∈ ((View.whole main_v0_3).slice (win0_18.rect t)).set ↔ _
  rw [View.set_slice_whole, Rect.mem_set_unit]
  exact Iff.rfl

theorem emb18 (t : Fin cfg0.N) (p : Fin 256) (j : Fin 1024) :
    ((cfg0.win 18).blk t).view.emb (ix2 p j) = ix2 (brow t p) j := by
  funext a; apply Fin.ext
  match a with
  | ⟨0, _⟩ => show win0_18.index t (0 : Fin 2) * 256 + 1 * p.val = 256 * t.val + p.val; rw [(idx_facts t).2.2.2.2.2.2.2.2.2.2.2.2.2.2.1]; omega
  | ⟨1, _⟩ => show win0_18.index t (1 : Fin 2) * 1024 + 1 * j.val = j.val; rw [(idx_facts t).2.2.2.2.2.2.2.2.2.2.2.2.2.2.2.1]; omega

theorem cover18 (i : S8192x1024.Idx) :
    ∃ t : Fin cfg0.N, (cfg0.win 18).flush t = true ∧ i ∈ ((cfg0.win 18).blk t).view.set := by
  have hi0 : (i 0).val < 8192 := (i 0).isLt
  have hi1 : (i 1).val < 1024 := (i 1).isLt
  have hN : (i 0).val / 256 < cfg0.N := lt_of_lt_of_eq (by omega : (i 0).val / 256 < 32) N_0.symm
  refine ⟨⟨(i 0).val / 256, hN⟩, flush0_18 _, ?_⟩
  rw [mem_blk18]
  have f0 := (idx_facts ⟨(i 0).val / 256, hN⟩).2.2.2.2.2.2.2.2.2.2.2.2.2.2.1
  have f1 := (idx_facts ⟨(i 0).val / 256, hN⟩).2.2.2.2.2.2.2.2.2.2.2.2.2.2.2.1
  intro a
  match a with
  | ⟨0, _⟩ => show win0_18.index ⟨(i 0).val / 256, hN⟩ (0 : Fin 2) * 256 ≤ (i 0).val ∧ (i 0).val < win0_18.index ⟨(i 0).val / 256, hN⟩ (0 : Fin 2) * 256 + 256; rw [f0]; show (i 0).val / 256 * 256 ≤ (i 0).val ∧ (i 0).val < (i 0).val / 256 * 256 + 256; omega
  | ⟨1, _⟩ => show win0_18.index ⟨(i 0).val / 256, hN⟩ (1 : Fin 2) * 1024 ≤ (i 1).val ∧ (i 1).val < win0_18.index ⟨(i 0).val / 256, hN⟩ (1 : Fin 2) * 1024 + 1024; rw [f1]; omega

/-- What point `t` writes back is block `t` of the belief array. -/
theorem flushed18_eq (c : Dev nD) (t : Fin cfg0.N) :
    (dats m 0 c).flushed 18 t = ((cfg0.win 18).blk t).view.read (Elt Ideal) (beliefG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) := by
  rw [Value.flushed18]
  unfold out0_18
  rw [View.canon_unit_zero hz]
  simp only [View.ld_unit_zero (S := S256x1024) hz, View.ld_unit_zero (S := S256x32) hz, View.ld_unit_zero (S := S256x2048) hz, View.ld_unit_zero (S := S256x256) hz, View.ld_unit_zero (S := S1024x1024) hz, View.ld_unit_zero (S := S32x1024) hz, View.ld_unit_zero (S := S2048x1024) hz, View.ld_unit_zero (S := S1x1024) hz, View.ld_unit_zero (S := S1024x512) hz, View.ld_unit_zero (S := S1x512) hz, View.ld_unit_zero (S := S256x3072) hz, View.ld_unit_zero (S := S32x3072) hz, View.ld_unit_zero (S := S1x3072) hz, View.ld_unit_zero (S := S1024x3072) hz]
  funext y
  obtain ⟨p, q, rfl⟩ : ∃ (p : Fin 256) (q : Fin 1024), y = ix2 p q := ⟨y 0, y 1, eq_ix2 y⟩
  show k0_pay7 (F := Ideal) (iblk m c 0 t) (iblk m c 3 t) (k0_pay1 (F := Ideal) (iblk m c 0 t)) (k0_pay2 (F := Ideal) (iblk m c 1 t))
      (k0_pay4 (F := Ideal) (iblk m c 0 t) (iblk m c 1 t) (iblk m c 2 t) (iblk m c 4 t) (iblk m c 5 t) (iblk m c 6 t) (iblk m c 7 t) (iblk m c 8 t) (iblk m c 9 t)) (k0_pay5 (F := Ideal) (iblk m c 0 t) (iblk m c 1 t) (iblk m c 2 t) (iblk m c 4 t) (iblk m c 5 t) (iblk m c 6 t) (iblk m c 7 t) (iblk m c 8 t) (iblk m c 9 t))
      (iblk m c 10 t) (iblk m c 11 t) (iblk m c 13 t) (iblk m c 12 t) (iblk m c 14 t) (ix2 p q)
    = beliefG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (((cfg0.win 18).blk t).view.emb (ix2 p q))
  rw [emb18, Body.belief_block]
  show belief (gateIn (sample (Body.outOf (iblk m c 0 t) (iblk m c 1 t) (iblk m c 2 t) (iblk m c 4 t) (iblk m c 5 t) (iblk m c 6 t) (iblk m c 7 t) (iblk m c 8 t) (iblk m c 9 t) p) (row (iblk m c 3 t) p)) (row (iblk m c 1 t) p) (mat (iblk m c 10 t)) (mat (iblk m c 11 t)) (Body.row1 (iblk m c 13 t)))
      (gateHid (row (iblk m c 0 t) p) (mat (iblk m c 12 t)) (Body.row1 (iblk m c 14 t))) (row (iblk m c 0 t) p) q
    = belief (gateIn (sample (outRow (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (brow t p)) (row (m ((c : Thread nD τ).loc main_arg3)) (brow t p))) (row (m ((c : Thread nD τ).loc main_arg1)) (brow t p)) (Wis (m ((c : Thread nD τ).loc main_arg8))) (Wia (m ((c : Thread nD τ).loc main_arg8))) (vec (m ((c : Thread nD τ).loc main_arg10))))
      (gateHid (row (m ((c : Thread nD τ).loc main_arg0)) (brow t p)) (WhhT (m ((c : Thread nD τ).loc main_arg9))) (vec (m ((c : Thread nD τ).loc main_arg11)))) (row (m ((c : Thread nD τ).loc main_arg0)) (brow t p)) q
  rw [out_row, rows3, rows1, mat10, mat11, bias13, rows0, mat12, bias14]

/-- The belief array after the run. -/
theorem final18 (c : Dev nD) : (dats m 0 c).arrAt 18 cfg0.N = beliefG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (dats m 0 c).arrAt_eq_of_cover 18 (beliefG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (fun t _ => flushed18_eq m c t) cover18

/-! ## The run, read -/

/-- Every weakly fair execution of the idealized kernel terminates with the four result arrays at the
    specification's functions of the arguments, the arguments unchanged. -/
theorem run : θ_run defs (onTc (τ := τ) (main (F := Ideal))) ⟨m, fun _ => 0, ρ⟩ fun r => ∀ c : Dev nD,
      r.2.mem ((c : Thread nD τ).loc main_v0_0) = meanG (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))
      ∧ r.2.mem ((c : Thread nD τ).loc main_v0_1) = varG (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))
      ∧ r.2.mem ((c : Thread nD τ).loc main_v0_2) = sampleG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v0_3) = beliefG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final15 m c), (h c).2.1.trans (final16 m c),
      (h c).2.2.1.trans (final17 m c), (h c).2.2.2.1.trans (final18 m c), (h c).2.2.2.2⟩)
    (Value.run_blocks m ρ)

end Cert.KernelIdeal.Blocks

end
-- ==== Proof.RefIsSpec.lean ====
/-
  The reference's stages are the specification's row functions.

  The reference joins a batch row's previous state, previous action and observation into one row of 3104 entries and
  multiplies it with the whole first-layer matrix; joined entry k is the state's entry k below 1024, the action's
  entry k − 1024 below 1056, the observation's entry k − 1056 from there on, so the product's sum over 3104
  positions is the sum of the three block sums. Likewise the sample joined with the action (288 entries) against the
  transposed input-gate matrix. The reference spells the logistic function as 1 / (1 + exp (−x)), which is the
  logistic function on every extended real.
-/
import proofs.«105895_j6665789243871_2_alg».proof.Proof.Gen.ReferenceIdeal.Read
import proofs.«105895_j6665789243871_2_alg».proof.Proof.Spec
import Idealize.ShloMosaic.Lib.Pipeline.Value
import Idealize.ShloMosaic.Lib.ValueLayout

noncomputable section

namespace Cert.ReferenceIdeal.RefValue

open Cert.ReferenceIdeal Cert.ReferenceIdeal.Gen Cert.ReferenceIdeal.Read Idealize.ShloMosaic Idealize.ShloMosaic.ValueIdx Cert.Rssm
open scoped BigOperators

variable (x0 : (⟨S8192x1024, .f32⟩ : BufTy).Contents (Elt Ideal)) (x1 : (⟨S8192x32, .f32⟩ : BufTy).Contents (Elt Ideal))
  (x2 : (⟨S8192x2048, .f32⟩ : BufTy).Contents (Elt Ideal)) (x3 : (⟨S8192x256, .f32⟩ : BufTy).Contents (Elt Ideal))
  (x4 : (⟨S3104x1024, .f32⟩ : BufTy).Contents (Elt Ideal)) (x5 : (⟨S1024, .f32⟩ : BufTy).Contents (Elt Ideal))
  (x6 : (⟨S1024x512, .f32⟩ : BufTy).Contents (Elt Ideal)) (x7 : (⟨S512, .f32⟩ : BufTy).Contents (Elt Ideal))
  (x8 : (⟨S3072x288, .f32⟩ : BufTy).Contents (Elt Ideal)) (x9 : (⟨S3072x1024, .f32⟩ : BufTy).Contents (Elt Ideal))
  (x10 x11 : (⟨S3072, .f32⟩ : BufTy).Contents (Elt Ideal))

/-! ## The joined input row -/

/-- Joined entry k below 1024 is the state's entry k. -/
theorem joined_state (b : Fin 8192) (k : Fin 1024) (kk : Fin 3104) (hk : kk.val = k.val) (q : Fin 1024) :
    val_main_v0 (F := Ideal) x0 x1 x2 (lidx_main_v1 (ix2 b q) kk) = x0 (ix2 b k) := by
  unfold val_main_v0
  exact concatenate_apply_piece (t := S8192x3104) (1 : Fin 2) [⟨S8192x1024, x0⟩, ⟨S8192x32, x1⟩, ⟨S8192x2048, x2⟩] concatenates_S8192x1024_S8192x32_S8192x2048_S8192x3104_d1 (lidx_main_v1 (ix2 b q) kk) 0 (by show (0 : ℕ) < 3; omega) S8192x1024 x0 rfl rfl 0 rfl (ix2 b k)
    (fun a ha => match a with
      | ⟨0, _⟩ => rfl
      | ⟨1, _⟩ => absurd (Fin.ext rfl) ha)
    (by show 0 + k.val = kk.val; omega)

/-- Joined entry 1024 + k is the action's entry k. -/
theorem joined_action (b : Fin 8192) (k : Fin 32) (kk : Fin 3104) (hk : kk.val = 1024 + k.val) (q : Fin 1024) :
    val_main_v0 (F := Ideal) x0 x1 x2 (lidx_main_v1 (ix2 b q) kk) = x1 (ix2 b k) := by
  unfold val_main_v0
  exact concatenate_apply_piece (t := S8192x3104) (1 : Fin 2) [⟨S8192x1024, x0⟩, ⟨S8192x32, x1⟩, ⟨S8192x2048, x2⟩] concatenates_S8192x1024_S8192x32_S8192x2048_S8192x3104_d1 (lidx_main_v1 (ix2 b q) kk) 1 (by show (1 : ℕ) < 3; omega) S8192x32 x1 rfl rfl 1024 rfl (ix2 b k)
    (fun a ha => match a with
      | ⟨0, _⟩ => rfl
      | ⟨1, _⟩ => absurd (Fin.ext rfl) ha)
    (by show 1024 + k.val = kk.val; omega)

/-- Joined entry 1056 + k is the observation's entry k. -/
theorem joined_obs (b : Fin 8192) (k : Fin 2048) (kk : Fin 3104) (hk : kk.val = 1056 + k.val) (q : Fin 1024) :
    val_main_v0 (F := Ideal) x0 x1 x2 (lidx_main_v1 (ix2 b q) kk) = x2 (ix2 b k) := by
  unfold val_main_v0
  exact concatenate_apply_piece (t := S8192x3104) (1 : Fin 2) [⟨S8192x1024, x0⟩, ⟨S8192x32, x1⟩, ⟨S8192x2048, x2⟩] concatenates_S8192x1024_S8192x32_S8192x2048_S8192x3104_d1 (lidx_main_v1 (ix2 b q) kk) 2 (by show (2 : ℕ) < 3; omega) S8192x2048 x2 rfl rfl 1056 rfl (ix2 b k)
    (fun a ha => match a with
      | ⟨0, _⟩ => rfl
      | ⟨1, _⟩ => absurd (Fin.ext rfl) ha)
    (by show 1056 + k.val = kk.val; omega)

/-- The weight entry the product pairs with joined entry kk. -/
theorem weight_at (b : Fin 8192) (kk : Fin 3104) (q : Fin 1024) :
    x4 (ridx_main_v1 (ix2 b q) kk) = x4 (ix2 kk q) :=
  congrArg x4 (funext fun a => Fin.ext (by match a with | ⟨0, _⟩ => rfl | ⟨1, _⟩ => rfl))

/-- The first layer's product: the three block sums. -/
theorem first_product (b : Fin 8192) (q : Fin 1024) :
    val_main_v1 (F := Ideal) x0 x1 x2 x4 (ix2 b q)
      = ((∑ k, row x0 b k * W1s x4 k q) + ∑ k, row x1 b k * W1a x4 k q) + ∑ k, row x2 b k * W1o x4 k q := by
  rw [val_main_v1_apply, sum_three_ranges 1024 32 2048 3104 rfl]
  refine congrArg₂ (· + ·) (congrArg₂ (· + ·) ?_ ?_) ?_
  · refine Finset.sum_congr rfl fun k _ => ?_
    rw [joined_state x0 x1 x2 b k _ rfl q, weight_at x4 b _ q]; rfl
  · refine Finset.sum_congr rfl fun k _ => ?_
    rw [joined_action x0 x1 x2 b k _ rfl q, weight_at x4 b _ q]; rfl
  · refine Finset.sum_congr rfl fun k _ => ?_
    rw [joined_obs x0 x1 x2 b k _ rfl q, weight_at x4 b _ q]; rfl

/-! ## The hidden layer and the affine output -/

theorem bias1_idx (b : Fin 8192) (q : Fin 1024) : idx_main_v2 (idx_main_v3 (ix2 b q)) = ix1 q :=
  funext fun a => by match a with | ⟨0, _⟩ => rfl

theorem ref_hidden (b : Fin 8192) (q : Fin 1024) :
    val_main_v5 (F := Ideal) x0 x1 x2 x4 x5 (ix2 b q)
      = hiddenRow (row x0 b) (row x1 b) (row x2 b) (W1s x4) (W1a x4) (W1o x4) (vec x5) q := by
  rw [val_main_v5_apply, val_main_v4_apply, first_product, val_main_v3_apply, val_main_v2_apply, bias1_idx,
    val_main_call0_v0_apply, val_main_call0_cst_apply]
  rfl

theorem lidx6 (b : Fin 8192) (j : Fin 512) (k : Fin 1024) : lidx_main_v6 (ix2 b j) k = ix2 b k := funext fun a => Fin.ext (by match a with | ⟨0, _⟩ => rfl | ⟨1, _⟩ => rfl)
theorem ridx6 (b : Fin 8192) (j : Fin 512) (k : Fin 1024) : ridx_main_v6 (ix2 b j) k = ix2 k j := funext fun a => Fin.ext (by match a with | ⟨0, _⟩ => rfl | ⟨1, _⟩ => rfl)
theorem bias2_idx (b : Fin 8192) (j : Fin 512) : idx_main_v7 (idx_main_v8 (ix2 b j)) = ix1 j :=
  funext fun a => by match a with | ⟨0, _⟩ => rfl

/-- The affine output of batch row b. -/
theorem ref_out (b : Fin 8192) (j : Fin 512) :
    val_main_v9 (F := Ideal) x0 x1 x2 x4 x5 x6 x7 (ix2 b j) = outRow x0 x1 x2 x4 x5 x6 x7 b j := by
  rw [val_main_v9_apply, val_main_v6_apply, val_main_v8_apply, val_main_v7_apply, bias2_idx]
  unfold outRow affine
  refine congrArg₂ (· + ·) (Finset.sum_congr rfl fun k _ => ?_) rfl
  rw [lidx6, ridx6, ref_hidden]
  rfl

/-! ## Mean, variance, sample -/

theorem idx10 (b : Fin 8192) (j : Fin 256) : idx_main_v10 (ix2 b j) = ix2 b (lo j) := funext fun a => Fin.ext (by match a with | ⟨0, _⟩ => rfl | ⟨1, _⟩ => rfl)
theorem idx11 (b : Fin 8192) (j : Fin 256) : idx_main_v11 (ix2 b j) = ix2 b (hi j) :=
  funext fun a => Fin.ext (by match a with | ⟨0, _⟩ => rfl | ⟨1, _⟩ => show 256 + j.val = j.val + 256; omega)

theorem ref_mean : val_main_v10 (F := Ideal) x0 x1 x2 x4 x5 x6 x7 = meanG x0 x1 x2 x4 x5 x6 x7 := by
  funext i
  obtain ⟨b, j, rfl⟩ : ∃ (b : Fin 8192) (j : Fin 256), i = ix2 b j := ⟨i 0, i 1, eq_ix2 i⟩
  rw [val_main_v10_apply, idx10, ref_out]
  rfl

theorem ref_var : val_main_v11 (F := Ideal) x0 x1 x2 x4 x5 x6 x7 = varG x0 x1 x2 x4 x5 x6 x7 := by
  funext i
  obtain ⟨b, j, rfl⟩ : ∃ (b : Fin 8192) (j : Fin 256), i = ix2 b j := ⟨i 0, i 1, eq_ix2 i⟩
  rw [val_main_v11_apply, idx11, ref_out]
  rfl

theorem ref_sample_at (b : Fin 8192) (j : Fin 256) :
    val_main_v14 (F := Ideal) x0 x1 x2 x3 x4 x5 x6 x7 (ix2 b j) = sampleRow x0 x1 x2 x3 x4 x5 x6 x7 b j := by
  rw [val_main_v14_apply, val_main_v13_apply, val_main_v12_apply, val_main_v10_apply, val_main_v11_apply, idx10, idx11,
    ref_out, ref_out]
  rfl

theorem ref_sample : val_main_v14 (F := Ideal) x0 x1 x2 x3 x4 x5 x6 x7 = sampleG x0 x1 x2 x3 x4 x5 x6 x7 := by
  funext i
  obtain ⟨b, j, rfl⟩ : ∃ (b : Fin 8192) (j : Fin 256), i = ix2 b j := ⟨i 0, i 1, eq_ix2 i⟩
  exact ref_sample_at x0 x1 x2 x3 x4 x5 x6 x7 b j

/-! ## The recurrent cell's pre-activations -/

/-- The sample joined with the action: entry k below 256 is the sample's. -/
theorem joined2_sample (b : Fin 8192) (k : Fin 256) (kk : Fin 288) (hk : kk.val = k.val) (j : Fin 3072) :
    val_main_v15 (F := Ideal) x0 x1 x2 x3 x4 x5 x6 x7 (lidx_main_v17 (ix2 b j) kk) = val_main_v14 (F := Ideal) x0 x1 x2 x3 x4 x5 x6 x7 (ix2 b k) := by
  unfold val_main_v15
  exact concatenate_pair_apply_left (t := S8192x288) (1 : Fin 2) (val_main_v14 (F := Ideal) x0 x1 x2 x3 x4 x5 x6 x7) x1
    concatenates_S8192x256_S8192x32_S8192x288_d1 (lidx_main_v17 (ix2 b j) kk) rfl (ix2 b k)
    (fun a => match a with
      | ⟨0, _⟩ => rfl
      | ⟨1, _⟩ => hk.symm)

/-- Entry 256 + k is the action's entry k. -/
theorem joined2_action (b : Fin 8192) (k : Fin 32) (kk : Fin 288) (hk : kk.val = 256 + k.val) (j : Fin 3072) :
    val_main_v15 (F := Ideal) x0 x1 x2 x3 x4 x5 x6 x7 (lidx_main_v17 (ix2 b j) kk) = x1 (ix2 b k) := by
  unfold val_main_v15
  exact concatenate_pair_apply_right (t := S8192x288) (1 : Fin 2) (val_main_v14 (F := Ideal) x0 x1 x2 x3 x4 x5 x6 x7) x1
    concatenates_S8192x256_S8192x32_S8192x288_d1 (lidx_main_v17 (ix2 b j) kk) rfl rfl (ix2 b k)
    (fun a ha => match a with
      | ⟨0, _⟩ => rfl
      | ⟨1, _⟩ => absurd (Fin.ext rfl) ha)
    (by show k.val + 256 = kk.val; omega)

theorem wih_at (b : Fin 8192) (kk : Fin 288) (j : Fin 3072) :
    val_main_v16 (F := Ideal) x8 (ridx_main_v17 (ix2 b j) kk) = x8 (ix2 j kk) := by
  rw [val_main_v16_apply]
  exact congrArg x8 (funext fun a => Fin.ext (by match a with | ⟨0, _⟩ => rfl | ⟨1, _⟩ => rfl))

theorem bias3_idx (b : Fin 8192) (j : Fin 3072) : idx_main_v18 (idx_main_v19 (ix2 b j)) = ix1 j :=
  funext fun a => by match a with | ⟨0, _⟩ => rfl

theorem ref_gi (b : Fin 8192) (j : Fin 3072) :
    val_main_v20 (F := Ideal) x0 x1 x2 x3 x4 x5 x6 x7 x8 x10 (ix2 b j)
      = gateIn (sampleRow x0 x1 x2 x3 x4 x5 x6 x7 b) (row x1 b) (Wis x8) (Wia x8) (vec x10) j := by
  rw [val_main_v20_apply, val_main_v17_apply, sum_two_ranges 256 32 288 rfl, val_main_v19_apply, val_main_v18_apply,
    bias3_idx]
  unfold gateIn
  refine congrArg₂ (· + ·) (congrArg₂ (· + ·) (Finset.sum_congr rfl fun k _ => ?_) (Finset.sum_congr rfl fun k _ => ?_)) rfl
  · rw [joined2_sample x0 x1 x2 x3 x4 x5 x6 x7 b k _ rfl j, wih_at x8 b _ j, ref_sample_at]
    rfl
  · rw [joined2_action x0 x1 x2 x3 x4 x5 x6 x7 b k _ rfl j, wih_at x8 b _ j]
    rfl

theorem lidx22 (b : Fin 8192) (j : Fin 3072) (k : Fin 1024) : lidx_main_v22 (ix2 b j) k = ix2 b k := funext fun a => Fin.ext (by match a with | ⟨0, _⟩ => rfl | ⟨1, _⟩ => rfl)
theorem whh_at (b : Fin 8192) (k : Fin 1024) (j : Fin 3072) :
    val_main_v21 (F := Ideal) x9 (ridx_main_v22 (ix2 b j) k) = x9 (ix2 j k) := by
  rw [val_main_v21_apply]
  exact congrArg x9 (funext fun a => Fin.ext (by match a with | ⟨0, _⟩ => rfl | ⟨1, _⟩ => rfl))
theorem bias4_idx (b : Fin 8192) (j : Fin 3072) : idx_main_v23 (idx_main_v24 (ix2 b j)) = ix1 j :=
  funext fun a => by match a with | ⟨0, _⟩ => rfl

theorem ref_gh (b : Fin 8192) (j : Fin 3072) :
    val_main_v25 (F := Ideal) x0 x9 x11 (ix2 b j) = gateHid (row x0 b) (WhhT x9) (vec x11) j := by
  rw [val_main_v25_apply, val_main_v22_apply, val_main_v24_apply, val_main_v23_apply, bias4_idx]
  unfold gateHid
  refine congrArg₂ (· + ·) (Finset.sum_congr rfl fun k _ => ?_) rfl
  rw [lidx22, whh_at x9 b k j]
  rfl

/-! ## The belief -/

theorem idx26 (b : Fin 8192) (q : Fin 1024) : idx_main_v26 (ix2 b q) = ix2 b (third0 q) := funext fun a => Fin.ext (by match a with | ⟨0, _⟩ => rfl | ⟨1, _⟩ => rfl)
theorem idx27 (b : Fin 8192) (q : Fin 1024) : idx_main_v27 (ix2 b q) = ix2 b (third1 q) :=
  funext fun a => Fin.ext (by match a with | ⟨0, _⟩ => rfl | ⟨1, _⟩ => show 1024 + q.val = q.val + 1024; omega)
theorem idx28 (b : Fin 8192) (q : Fin 1024) : idx_main_v28 (ix2 b q) = ix2 b (third2 q) :=
  funext fun a => Fin.ext (by match a with | ⟨0, _⟩ => rfl | ⟨1, _⟩ => show 2048 + q.val = q.val + 2048; omega)
theorem idx29 (b : Fin 8192) (q : Fin 1024) : idx_main_v29 (ix2 b q) = ix2 b (third0 q) := funext fun a => Fin.ext (by match a with | ⟨0, _⟩ => rfl | ⟨1, _⟩ => rfl)
theorem idx30 (b : Fin 8192) (q : Fin 1024) : idx_main_v30 (ix2 b q) = ix2 b (third1 q) :=
  funext fun a => Fin.ext (by match a with | ⟨0, _⟩ => rfl | ⟨1, _⟩ => show 1024 + q.val = q.val + 1024; omega)
theorem idx31 (b : Fin 8192) (q : Fin 1024) : idx_main_v31 (ix2 b q) = ix2 b (third2 q) :=
  funext fun a => Fin.ext (by match a with | ⟨0, _⟩ => rfl | ⟨1, _⟩ => show 2048 + q.val = q.val + 2048; omega)

theorem ref_belief_at (b : Fin 8192) (q : Fin 1024) :
    val_main_v53 (F := Ideal) x0 x1 x2 x3 x4 x5 x6 x7 x8 x9 x10 x11 (ix2 b q) = beliefRow x0 x1 x2 x3 x4 x5 x6 x7 x8 x9 x10 x11 b q := by
  simp only [val_main_v53_apply, val_main_v52_apply, val_main_v51_apply, val_main_v50_apply, val_main_v49_apply,
    val_main_cst_3_apply, val_main_v48_apply, val_main_v47_apply, val_main_v46_apply, val_main_v45_apply,
    val_main_v44_apply, val_main_cst_2_apply, val_main_v43_apply, val_main_v42_apply, val_main_cst_1_apply,
    val_main_v41_apply, val_main_v40_apply, val_main_v39_apply, val_main_v38_apply, val_main_v37_apply,
    val_main_cst_0_apply, val_main_v36_apply, val_main_v35_apply, val_main_cst_apply, val_main_v34_apply,
    val_main_v33_apply, val_main_v32_apply, val_main_v31_apply, val_main_v30_apply, val_main_v29_apply,
    val_main_v28_apply, val_main_v27_apply, val_main_v26_apply, idx26, idx27, idx28, idx29, idx30, idx31, ref_gi, ref_gh]
  unfold beliefRow belief
  simp only [Ideal.addf_def, Ideal.subf_def, Ideal.mulf_def, Ideal.hostDivf_def, Ideal.hostUnary_exp_def,
    Ideal.hostUnary_tanh_def, Ideal.hostNegf_def, Ideal.negf_def, Ideal.ofBits_def, logistic_eq_quotient]
  rfl

theorem ref_belief : val_main_v53 (F := Ideal) x0 x1 x2 x3 x4 x5 x6 x7 x8 x9 x10 x11 = beliefG x0 x1 x2 x3 x4 x5 x6 x7 x8 x9 x10 x11 := by
  funext i
  obtain ⟨b, q, rfl⟩ : ∃ (b : Fin 8192) (q : Fin 1024), i = ix2 b q := ⟨i 0, i 1, eq_ix2 i⟩
  exact ref_belief_at x0 x1 x2 x3 x4 x5 x6 x7 x8 x9 x10 x11 b q

end Cert.ReferenceIdeal.RefValue

end
-- ==== Proof.lean ====
/-
  One step of a recurrent state-space model: a Pallas kernel against its jnp reference, over the extended reals.

  Both programs compute, for each of 8192 batch rows, a two-layer representation network on the joined previous
  state, previous action and observation; split its 512 outputs into a mean and a variance; draw the sample
  mean + sqrt(variance) · noise; and update the belief state with a gated recurrent cell on the sample joined with
  the action. They return the mean, the variance, the sample and the new belief.

  The kernel works on 32 blocks of 256 rows. It never joins vectors: the host cuts the first layer's weight matrix
  into the three row blocks that meet the state, the action and the observation, and the transposed input-gate
  matrix into the two row blocks that meet the sample and the action, and the kernel adds the block products.
  It rounds every matrix product's operands to a narrower float format, which is the identity at the exact values,
  and it applies the logistic function as one operation where the reference writes 1 / (1 + exp (−x)).

  The two agree because a sum over a joined index range is the sum of the sums over its parts — which needs only
  that addition of extended reals is commutative and associative, so no finiteness of the inputs is used — and
  because the logistic function is that quotient on every extended real. Each result is stated once, as a function
  of the twelve argument arrays (the specification); the kernel's blocks tile that function's array, and each of
  the reference's stages, read at an index, is the specification's row function.

  The three frames are the generated ones (the reference's is its generated run with the results dropped); the
  idealization rewrote nothing, so there is nothing to preserve.
-/
import proofs.«105895_j6665789243871_2_alg».proof.Defs
import proofs.«105895_j6665789243871_2_alg».proof.Proof.Gen.Kernel
import proofs.«105895_j6665789243871_2_alg».proof.Proof.Gen.Kernel.Skeleton
import proofs.«105895_j6665789243871_2_alg».proof.Proof.Gen.Kernel.Launch
import proofs.«105895_j6665789243871_2_alg».proof.Proof.Gen.Kernel.Points
import proofs.«105895_j6665789243871_2_alg».proof.Proof.Gen.Kernel.Frame
import proofs.«105895_j6665789243871_2_alg».proof.Proof.Gen.KernelIdeal
import proofs.«105895_j6665789243871_2_alg».proof.Proof.Gen.KernelIdeal.Skeleton
import proofs.«105895_j6665789243871_2_alg».proof.Proof.Gen.KernelIdeal.Launch
import proofs.«105895_j6665789243871_2_alg».proof.Proof.Gen.KernelIdeal.Points
import proofs.«105895_j6665789243871_2_alg».proof.Proof.Gen.KernelIdeal.Frame
import proofs.«105895_j6665789243871_2_alg».proof.Proof.Gen.KernelIdeal.Value
import proofs.«105895_j6665789243871_2_alg».proof.Proof.Gen.ReferenceIdeal
import proofs.«105895_j6665789243871_2_alg».proof.Proof.Gen.ReferenceIdeal.Run
import proofs.«105895_j6665789243871_2_alg».proof.Proof.Gen.ReferenceIdeal.Read
import proofs.«105895_j6665789243871_2_alg».proof.Proof.Gen.Pre_finite_inputs
import proofs.«105895_j6665789243871_2_alg».proof.Proof.Blocks
import proofs.«105895_j6665789243871_2_alg».proof.Proof.RefIsSpec
import Idealize.ShloMosaic.Adequacy
import Idealize.ShloMosaic.Init

noncomputable section

namespace Cert.Proof

open Idealize.ShloMosaic Idealize.SL.Sem Idealize.ShloMosaic.TcCoe Cert.Rssm
open Cert.ReferenceIdeal.Read Cert.ReferenceIdeal.RefValue

/-- The kernel as printed runs and leaves its arguments unchanged. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference's run, its four results dropped. -/
theorem frame_reference : Cert.frame_ReferenceIdeal := fun m ρ _ =>
  (θ_run Cert.ReferenceIdeal.defs _ _).mono (fun _ h c => (h c).2.2.2.2)
    (Cert.ReferenceIdeal.Value.run (F := Ideal) m ρ)

/-- From arguments that agree, both programs end with the specification's four arrays. -/
theorem algebraic : Cert.algebraic_KernelIdeal_ReferenceIdeal := by
  intro m ρ m' ρ' _ hagree
  refine ⟨fun c => meanG (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => varG (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => sampleG (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => beliefG (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    Cert.KernelIdeal.Blocks.run m ρ, ?_⟩
  refine (θ_run Cert.ReferenceIdeal.defs _ _).mono (fun r h c => ?_) (Cert.ReferenceIdeal.Value.run (F := Ideal) m' ρ')
  obtain ⟨h10, h11, h14, h53, hrest⟩ := h c
  obtain ⟨a0, a1, a2, a3, a4, a5, a6, a7, a8, a9, a10, a11⟩ := hagree c
  refine ⟨?_, ?_, ?_, ?_, hrest⟩
  · rw [h10, val_main_v10_eq, ref_mean, a0, a1, a2, a4, a5, a6, a7]
  · rw [h11, val_main_v11_eq, ref_var, a0, a1, a2, a4, a5, a6, a7]
  · rw [h14, val_main_v14_eq, ref_sample, a0, a1, a2, a3, a4, a5, a6, a7]
  · rw [h53, val_main_v53_eq, ref_belief, a0, a1, a2, a3, a4, a5, a6, a7, a8, a9, a10, a11]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
